-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S50000x128 : Shape := ⟨2, ![50000, 128]⟩
abbrev S5000x256 : Shape := ⟨2, ![5000, 256]⟩
abbrev S5000x128 : Shape := ⟨2, ![5000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 133
  | .vmem => 10
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x64, .f32⟩
  | 5 => ⟨S64, .f32⟩
  | 6 => ⟨S256x128, .bf16⟩
  | 7 => ⟨S128x64, .bf16⟩
  | 8 => ⟨S1x800000, .i32⟩
  | 9 => ⟨S800000, .i32⟩
  | 10 => ⟨S1x800000, .i32⟩
  | 11 => ⟨S800000, .i32⟩
  | 12 => ⟨S50000, .i32⟩
  | 13 => ⟨S850000, .i32⟩
  | 14 => ⟨S850000, .i32⟩
  | 15 => ⟨S50000x256, .bf16⟩
  | 16 => ⟨S50000x128, .f32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x800000, .i32⟩
  | 73 => ⟨S800000, .i32⟩
  | 74 => ⟨S1x800000, .i32⟩
  | 75 => ⟨S800000, .i32⟩
  | 76 => ⟨S50000, .i32⟩
  | 77 => ⟨S850000, .i32⟩
  | 78 => ⟨S850000, .i32⟩
  | 79 => ⟨S50000x128, .bf16⟩
  | 80 => ⟨S50000x64, .f32⟩
  | 81 => ⟨S_, .f32⟩
  | 82 => ⟨S850000, .f32⟩
  | 83 => ⟨S_, .f32⟩
  | 84 => ⟨S50000, .f32⟩
  | 85 => ⟨S850000x1, .i32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x64, .f32⟩
  | 123 => ⟨S850000x1, .f32⟩
  | 124 => ⟨S850000x64, .f32⟩
  | 125 => ⟨S850000x64, .f32⟩
  | 126 => ⟨S_, .f32⟩
  | 127 => ⟨S50000x64, .f32⟩
  | _ => ⟨S50000x256, .f32⟩

abbrev hbmTy0_1 (i : Nat) : BufTy := match i % 128 with
  | 0 => ⟨S850000x1, .i32⟩
  | 1 => ⟨S50000x64, .f32⟩
  | 2 => ⟨S1x64, .f32⟩
  | 3 => ⟨S50000x64, .f32⟩
  | 4 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .bf16⟩
  | .local _ .vmem, ⟨1, _⟩ => ⟨S5000x256, .bf16⟩
  | .local _ .vmem, ⟨2, _⟩ => ⟨S256x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .bf16⟩
  | .local _ .vmem, ⟨6, _⟩ => ⟨S5000x128, .bf16⟩
  | .local _ .vmem, ⟨7, _⟩ => ⟨S128x64, .bf16⟩
  | .local _ .vmem, ⟨8, _⟩ => ⟨S5000x64, .f32⟩
  | .local _ .vmem, ⟨9, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_15 : Ref sig .tc := ⟨.hbm, 104, rfl⟩
abbrev main_v75 : Ref sig .tc := ⟨.hbm, 105, rfl⟩
abbrev main_v76 : Ref sig .tc := ⟨.hbm, 106, rfl⟩
abbrev main_c_16 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_17 : Ref sig .tc := ⟨.hbm, 114, rfl⟩
abbrev main_v83 : Ref sig .tc := ⟨.hbm, 115, rfl⟩
abbrev main_v84 : Ref sig .tc := ⟨.hbm, 116, rfl⟩
abbrev main_c_18 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_19 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S5000x256_S256x128_S5000x128_1_0_0_1_n_n_wf : DotDims.WF S5000x256 S256x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .bf16 = 32 ∨ (Rect.block (s := S50000x256) S5000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_v9) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v58) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S50000x128 : Shape := ⟨2, ![50000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S50000x128, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S1x800000, .i32⟩
  | 70 => ⟨S800000, .i32⟩
  | 71 => ⟨S1x800000, .i32⟩
  | 72 => ⟨S800000, .i32⟩
  | 73 => ⟨S50000, .i32⟩
  | 74 => ⟨S850000, .i32⟩
  | 75 => ⟨S850000, .i32⟩
  | 76 => ⟨S50000x64, .f32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x64, .f32⟩
  | 119 => ⟨S850000x1, .f32⟩
  | 120 => ⟨S850000x64, .f32⟩
  | 121 => ⟨S850000x64, .f32⟩
  | 122 => ⟨S_, .f32⟩
  | 123 => ⟨S50000x64, .f32⟩
  | 124 => ⟨S850000x1, .i32⟩
  | 125 => ⟨S50000x64, .f32⟩
  | 126 => ⟨S1x64, .f32⟩
  | 127 => ⟨S50000x64, .f32⟩
  | _ => ⟨S50000x256, .f32⟩

abbrev hbmTy0_1 (i : Nat) : BufTy := match i % 128 with
  | 0 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The kernel's program runs, and its result buffer ends at the last boundary's contents.

  The generated frame module already builds every ingredient of the run — the segment list of @main (host stretches
  and the two pallas_calls), the contents of the buffers at each segment boundary (`Gen.W0 … Gen.W11`, a fold from
  the launch memory), the proof data of each pipeline — and concludes only that the ARGUMENTS end unchanged.  The
  library's theorem it applies says more: every unscoped buffer `b` ends at `Gen.W11 … b`.  Here the same theorem
  is applied with a post that keeps this fact for the result buffer `main_v98` too.
-/
import proofs.«120447_j53334903882346_1_alg».proof.Proof.Gen.KernelIdeal.Frame

set_option maxRecDepth 16384

noncomputable section

namespace Cert.KernelIdeal.GcnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Cert.KernelIdeal.Facts]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at what the last host
    stretch leaves in it (`Gen.W11`), and the arguments end as launched. -/
theorem run_last : θ_run defs (onTc (τ := τ) (main (F := F))) ⟨m, fun _ => 0, ρ⟩ (fun r => ∀ c : Dev nD,
      r.2.mem ((c.tc : Thread nD τ).loc main_v98) = W11 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v98 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.GcnRun

end
-- ==== Proof.GcnSpec.lean ====
/-
  A two-layer graph convolution with symmetric normalisation, as one function of its six arguments.

  The edge list `e : [2, 800000]` gives a source row and a destination row; every node gets a self-loop, so both
  rows are extended by the node numbers 0 … 49999 to length 850000 (`srcIdx`, `dstIdx`).  The in-degree of a node
  counts the extended destinations equal to it (`deg`, a scatter-add of ones), `dinv` is its inverse square root where
  the degree is positive and zero elsewhere, and an edge's weight is `dinv src · dinv dst` (`norm`).  One layer takes
  the node features already projected, `h : [50000, C]`, gathers the source rows, scales each by its edge's weight,
  adds them into the destination rows and adds the bias to every row (`agg128`, `agg64`).  The network is
  `agg64 (relu (agg128 (x · W1)) · W2)` (`gcn`), the two projections being the host's matrix products.

  Everything here is a composition of array operations over any float model `F`; nothing is evaluated.  The point of
  cutting the network at the projections is that two programs which differ only in HOW they compute `x · W` are both
  `agg … (their product) …`, and are equal as soon as their products are.
-/
import proofs.«120447_j53334903882346_1_alg».proof.ReferenceIdeal

noncomputable section

namespace Cert.Gcn

open Idealize.ShloMosaic Cert.ReferenceIdeal Cert.ReferenceIdeal.Facts₀

variable {F : FTy → Type} [FloatOps F] [Cert.ReferenceIdeal.Facts]

/-- The sources of the 850000 messages: row 0 of the edge list, then every node once (its self-loop). -/
def srcIdx (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The destinations of the 850000 messages: row 1 of the edge list, then every node once. -/
def dstIdx (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A list of row numbers as the index column a gather takes: a negative number counts from the end (50000 is added
    to it), any other is kept. -/
def wrapCol (v : IVec S850000 32) : IVec S850000x1 32 :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- The in-degree of every node: ones added into a zero vector at the destinations. -/
def deg (dst : IVec S850000 32) : FVec F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- Is the degree positive? -/
def degPos (dst : IVec S850000 32) : IVec S50000 1 :=
  cmpf .ogt (deg (F := F) dst) (broadcastInDim S50000 ![] bcast_S_S50000 (constant S_ .f32 0x00000000#32))

/-- `1 / sqrt (deg)` where the degree is positive, zero elsewhere. -/
def dinvOf (pos : IVec S50000 1) (rs : FVec F S50000 .f32) (z : FVec F S_ .f32) : FVec F S50000 .f32 :=
  select pos rs (broadcastInDim S50000 ![] bcast_S_S50000 (id z))

def dinv (dst : IVec S850000 32) : FVec F S50000 .f32 :=
  dinvOf (degPos (F := F) dst) (Host.rsqrt (deg dst)) (constant S_ .f32 0x00000000#32)

/-- The weight of every message: `dinv` at its source times `dinv` at its destination. -/
def norm (src dst : IVec S850000 32) (d : FVec F S50000 .f32) : FVec F S850000 .f32 :=
  mulf (Host.gather gather_S50000_S850000x1_S850000_n_0_n_n_0_1_1 d (wrapCol src)) (Host.gather gather_S50000_S850000x1_S850000_n_0_n_n_0_1_1 d (wrapCol dst))

/-- One layer's aggregation at width 128: the source rows of `h`, each scaled by its message's weight, added into
    the destination rows of a zero array, plus the bias in every row. -/
def agg128 (src dst : IVec S850000 32) (d : FVec F S50000 .f32) (h : FVec F S50000x128 .f32) (b : FVec F S128 .f32) :
    FVec F S50000x128 .f32 :=
  addf (Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 h (wrapCol src)) (broadcastInDim S850000x128 ![0, 1] bcast_S850000x1_S850000x128_0_1 (broadcastInDim S850000x1 ![0] bcast_S850000_S850000x1_0 (norm src dst d))))) (broadcastInDim S50000x128 ![0, 1] bcast_S1x128_S50000x128_0_1 (broadcastInDim S1x128 ![1] bcast_S128_S1x128_1 b))

/-- The same at width 64. -/
def agg64 (src dst : IVec S850000 32) (d : FVec F S50000 .f32) (h : FVec F S50000x64 .f32) (b : FVec F S64 .f32) :
    FVec F S50000x64 .f32 :=
  addf (Host.scatterAdd scatter_S50000x64_S850000x1_S850000x64_1_0_0_1 (broadcastInDim S50000x64 ![] bcast_S_S50000x64 (constant S_ .f32 0x00000000#32)) (broadcastInDim S850000x1 ![0] bcast_S850000_S850000x1_0 dst) (mulf (Host.gather gather_S50000x64_S850000x1_S850000x64_1_0_n_n_0_1_164 h (wrapCol src)) (broadcastInDim S850000x64 ![0, 1] bcast_S850000x1_S850000x64_0_1 (broadcastInDim S850000x1 ![0] bcast_S850000_S850000x1_0 (norm src dst d))))) (broadcastInDim S50000x64 ![0, 1] bcast_S1x64_S50000x64_0_1 (broadcastInDim S1x64 ![1] bcast_S64_S1x64_1 b))

/-- The rectifier between the layers: the larger of an entry and zero. -/
def relu128 (x : FVec F S50000x128 .f32) : FVec F S50000x128 .f32 :=
  maximumf x (broadcastInDim S50000x128 ![] bcast_S_S50000x128 (constant S_ .f32 0x00000000#32))

/-- The hidden layer, from the first projection `h1 = x · W1`. -/
def hidden (e : IVec S2x800000 32) (h1 : FVec F S50000x128 .f32) (b1 : FVec F S128 .f32) : FVec F S50000x128 .f32 :=
  relu128 (agg128 (srcIdx e) (dstIdx e) (dinv (dstIdx e)) h1 b1)

/-- The output layer, from the second projection `h2 = hidden · W2`. -/
def output (e : IVec S2x800000 32) (h2 : FVec F S50000x64 .f32) (b2 : FVec F S64 .f32) : FVec F S50000x64 .f32 :=
  agg64 (srcIdx e) (dstIdx e) (dinv (dstIdx e)) h2 b2

/-- The network: both projections the host's matrix products. -/
def gcn (x : FVec F S50000x256 .f32) (e : IVec S2x800000 32) (w1 : FVec F S256x128 .f32) (b1 : FVec F S128 .f32)
    (w2 : FVec F S128x64 .f32) (b2 : FVec F S64 .f32) : FVec F S50000x64 .f32 :=
  output e (Host.dotGeneral dot_S50000x128_S128x64_S50000x64_1_0_0_1_n_n none
    (hidden e (Host.dotGeneral dot_S50000x256_S256x128_S50000x128_1_0_0_1_n_n none x w1) b1) w2) b2

end Cert.Gcn

end
-- ==== Proof.KernelStages.lean ====
/-
  The host stretches of the kernel's program, one at a time, over ANY contents `V` of the buffers they start from:
  what each stretch leaves in the buffers a later stretch (or a pallas_call) reads, as the specification's functions
  (`Cert.Gcn`) of what it found, and which buffers it leaves alone.

  The stretches are the same array operations as the reference's, over this program's own buffer numbers and shape
  records; the two spellings of a record (one per printed program) have the same fields, so each equation closes by
  unfolding.  Nothing here depends on what a pallas_call computes: its result buffer is just one more input `V ↑main_v10`
  / `V ↑main_v59` of the stretch after it.
-/
import proofs.«120447_j53334903882346_1_alg».proof.Proof.GcnSpec
import proofs.«120447_j53334903882346_1_alg».proof.Proof.Gen.KernelIdeal.Launch
import Idealize.ShloMosaic.Lib.StableHlo.Run

noncomputable section

namespace Cert.KernelIdeal.GcnStages

open Idealize.ShloMosaic Idealize.ShloMosaic.TcCoe Idealize.SL.Sem Idealize.ShloMosaic.StableHlo
open Cert.KernelIdeal Cert.KernelIdeal.Gen Cert.KernelIdeal.Facts₀

variable {F : FTy → Type} [FloatOps F] [Cert.KernelIdeal.Facts] [Cert.ReferenceIdeal.Facts]

local notation "↑ᵣ" r => (Proc.devRef (τ := τ) (sig := sig) Proc.tc r)

variable (V : Valuation τ sig (Elt F))

/-! ## Before the first pallas_call: the message lists and the three operands in the product's input format -/

theorem s0_src : after (hostOps0 (F := F)) V (↑ᵣ main_v7) = Cert.Gcn.srcIdx (V (↑ᵣ main_arg1)) := by
  after_results <;> rfl
theorem s0_dst : after (hostOps0 (F := F)) V (↑ᵣ main_v8) = Cert.Gcn.dstIdx (V (↑ᵣ main_arg1)) := by
  after_results <;> rfl
theorem s0_x : after (hostOps0 (F := F)) V (↑ᵣ main_v9) = truncf .bf16 (V (↑ᵣ main_arg0)) Facts₀.bitsLt_bf16_f32 := by
  after_results <;> rfl
theorem s0_w1 : after (hostOps0 (F := F)) V (↑ᵣ main_v0) = truncf .bf16 (V (↑ᵣ main_arg2)) Facts₀.bitsLt_bf16_f32 := by
  after_results <;> rfl
theorem s0_w2 : after (hostOps0 (F := F)) V (↑ᵣ main_v1) = truncf .bf16 (V (↑ᵣ main_arg4)) Facts₀.bitsLt_bf16_f32 := by
  after_results <;> rfl
theorem s0_keep : after (hostOps0 (F := F)) V (↑ᵣ main_arg1) = V (↑ᵣ main_arg1)
    ∧ after (hostOps0 (F := F)) V (↑ᵣ main_arg3) = V (↑ᵣ main_arg3)
    ∧ after (hostOps0 (F := F)) V (↑ᵣ main_arg5) = V (↑ᵣ main_arg5) := by
  refine ⟨?_, ?_, ?_⟩ <;> after_results

/-! ## Between the calls, first layer: degrees, their inverse roots, the aggregation, the rectifier -/

theorem s1_pos : after (hostOps1 (F := F)) V (↑ᵣ main_v16) = Cert.Gcn.degPos (F := F) (V (↑ᵣ main_v8)) := by
  after_results <;> rfl
theorem s1_rs : after (hostOps1 (F := F)) V (↑ᵣ main_v17) = Host.rsqrt (Cert.Gcn.deg (F := F) (V (↑ᵣ main_v8))) := by
  after_results <;> rfl
theorem s1_z : after (hostOps1 (F := F)) V (↑ᵣ main_cst_2) = constant (F := F) Cert.ReferenceIdeal.S_ .f32 0x00000000#32 := by
  after_results <;> rfl
theorem s1_keep : after (hostOps1 (F := F)) V (↑ᵣ main_arg1) = V (↑ᵣ main_arg1)
    ∧ after (hostOps1 (F := F)) V (↑ᵣ main_arg3) = V (↑ᵣ main_arg3)
    ∧ after (hostOps1 (F := F)) V (↑ᵣ main_arg5) = V (↑ᵣ main_arg5)
    ∧ after (hostOps1 (F := F)) V (↑ᵣ main_v1) = V (↑ᵣ main_v1)
    ∧ after (hostOps1 (F := F)) V (↑ᵣ main_v7) = V (↑ᵣ main_v7)
    ∧ after (hostOps1 (F := F)) V (↑ᵣ main_v8) = V (↑ᵣ main_v8)
    ∧ after (hostOps1 (F := F)) V (↑ᵣ main_v10) = V (↑ᵣ main_v10) := by
  refine ⟨?_, ?_, ?_, ?_, ?_, ?_, ?_⟩ <;> after_results

theorem s1_1_dinv : after (hostOps1_1 (F := F)) V (↑ᵣ main_v18)
    = Cert.Gcn.dinvOf (V (↑ᵣ main_v16)) (V (↑ᵣ main_v17)) (V (↑ᵣ main_cst_2)) := by
  after_results <;> rfl
theorem s1_1_keep : after (hostOps1_1 (F := F)) V (↑ᵣ main_arg1) = V (↑ᵣ main_arg1)
    ∧ after (hostOps1_1 (F := F)) V (↑ᵣ main_arg3) = V (↑ᵣ main_arg3)
    ∧ after (hostOps1_1 (F := F)) V (↑ᵣ main_arg5) = V (↑ᵣ main_arg5)
    ∧ after (hostOps1_1 (F := F)) V (↑ᵣ main_v1) = V (↑ᵣ main_v1)
    ∧ after (hostOps1_1 (F := F)) V (↑ᵣ main_v7) = V (↑ᵣ main_v7)
    ∧ after (hostOps1_1 (F := F)) V (↑ᵣ main_v8) = V (↑ᵣ main_v8)
    ∧ after (hostOps1_1 (F := F)) V (↑ᵣ main_v10) = V (↑ᵣ main_v10) := by
  refine ⟨?_, ?_, ?_, ?_, ?_, ?_, ?_⟩ <;> after_results

set_option maxHeartbeats 2000000 in
theorem s1_2_agg : after (hostOps1_2 (F := F)) V (↑ᵣ main_v49)
    = Cert.Gcn.agg128 (V (↑ᵣ main_v7)) (V (↑ᵣ main_v8)) (V (↑ᵣ main_v18)) (V (↑ᵣ main_v10)) (V (↑ᵣ main_arg3)) := by
  after_results_simp <;> rfl
theorem s1_2_keep : after (hostOps1_2 (F := F)) V (↑ᵣ main_arg1) = V (↑ᵣ main_arg1)
    ∧ after (hostOps1_2 (F := F)) V (↑ᵣ main_arg5) = V (↑ᵣ main_arg5)
    ∧ after (hostOps1_2 (F := F)) V (↑ᵣ main_v1) = V (↑ᵣ main_v1) := by
  refine ⟨?_, ?_, ?_⟩ <;> after_results

theorem s1_3_relu : after (hostOps1_3 (F := F)) V (↑ᵣ main_v50) = Cert.Gcn.relu128 (V (↑ᵣ main_v49)) := by
  after_results <;> rfl
theorem s1_3_keep : after (hostOps1_3 (F := F)) V (↑ᵣ main_arg1) = V (↑ᵣ main_arg1)
    ∧ after (hostOps1_3 (F := F)) V (↑ᵣ main_arg5) = V (↑ᵣ main_arg5)
    ∧ after (hostOps1_3 (F := F)) V (↑ᵣ main_v1) = V (↑ᵣ main_v1) := by
  refine ⟨?_, ?_, ?_⟩ <;> after_results

theorem s1_4_src : after (hostOps1_4 (F := F)) V (↑ᵣ main_v56) = Cert.Gcn.srcIdx (V (↑ᵣ main_arg1)) := by
  after_results <;> rfl
theorem s1_4_dst : after (hostOps1_4 (F := F)) V (↑ᵣ main_v57) = Cert.Gcn.dstIdx (V (↑ᵣ main_arg1)) := by
  after_results <;> rfl
theorem s1_4_x : after (hostOps1_4 (F := F)) V (↑ᵣ main_v58) = truncf .bf16 (V (↑ᵣ main_v50)) Facts₀.bitsLt_bf16_f32 := by
  after_results <;> rfl
theorem s1_4_keep : after (hostOps1_4 (F := F)) V (↑ᵣ main_arg5) = V (↑ᵣ main_arg5)
    ∧ after (hostOps1_4 (F := F)) V (↑ᵣ main_v1) = V (↑ᵣ main_v1) := by
  refine ⟨?_, ?_⟩ <;> after_results

/-! ## After the second pallas_call: the same for the output layer -/

theorem s2_pos : after (hostOps2 (F := F)) V (↑ᵣ main_v65) = Cert.Gcn.degPos (F := F) (V (↑ᵣ main_v57)) := by
  after_results <;> rfl
theorem s2_rs : after (hostOps2 (F := F)) V (↑ᵣ main_v66) = Host.rsqrt (Cert.Gcn.deg (F := F) (V (↑ᵣ main_v57))) := by
  after_results <;> rfl
theorem s2_z : after (hostOps2 (F := F)) V (↑ᵣ main_cst_12) = constant (F := F) Cert.ReferenceIdeal.S_ .f32 0x00000000#32 := by
  after_results <;> rfl
theorem s2_keep : after (hostOps2 (F := F)) V (↑ᵣ main_arg5) = V (↑ᵣ main_arg5)
    ∧ after (hostOps2 (F := F)) V (↑ᵣ main_v56) = V (↑ᵣ main_v56)
    ∧ after (hostOps2 (F := F)) V (↑ᵣ main_v57) = V (↑ᵣ main_v57)
    ∧ after (hostOps2 (F := F)) V (↑ᵣ main_v59) = V (↑ᵣ main_v59) := by
  refine ⟨?_, ?_, ?_, ?_⟩ <;> after_results

theorem s2_1_dinv : after (hostOps2_1 (F := F)) V (↑ᵣ main_v67)
    = Cert.Gcn.dinvOf (V (↑ᵣ main_v65)) (V (↑ᵣ main_v66)) (V (↑ᵣ main_cst_12)) := by
  after_results <;> rfl
theorem s2_1_keep : after (hostOps2_1 (F := F)) V (↑ᵣ main_arg5) = V (↑ᵣ main_arg5)
    ∧ after (hostOps2_1 (F := F)) V (↑ᵣ main_v56) = V (↑ᵣ main_v56)
    ∧ after (hostOps2_1 (F := F)) V (↑ᵣ main_v57) = V (↑ᵣ main_v57)
    ∧ after (hostOps2_1 (F := F)) V (↑ᵣ main_v59) = V (↑ᵣ main_v59) := by
  refine ⟨?_, ?_, ?_, ?_⟩ <;> after_results

set_option maxHeartbeats 2000000 in
theorem s2_2_agg : after (hostOps2_2 (F := F)) V (↑ᵣ main_v98)
    = Cert.Gcn.agg64 (V (↑ᵣ main_v56)) (V (↑ᵣ main_v57)) (V (↑ᵣ main_v67)) (V (↑ᵣ main_v59)) (V (↑ᵣ main_arg5)) := by
  after_results_simp <;> rfl

end Cert.KernelIdeal.GcnStages

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.MatmulBlocks.lean ====
/-
  What each pallas_call leaves in its result array, at the ideal values: the product of its two operand arrays.

  Each call walks a grid of ten points.  At point `t` the body loads band `t` of the row operand (5000 rows, all
  columns) and the whole weight, multiplies them into a zero accumulator and stores the band's product; the pipeline
  writes it back to rows `5000·t … 5000·t + 4999` of the result.  An entry of a product is a finite sum on the
  extended reals, `∑ k, x (r, k) · w (k, j)`, and the band's entry (r, j) is the whole product's entry
  (5000·t + r, j); the ten bands cover the fifty thousand rows, so the result array is the whole product.  No
  finiteness is used: nothing is reordered, only re-indexed.
-/
import proofs.«120447_j53334903882346_1_alg».proof.Proof.Gen.KernelIdeal.Frame
import proofs.«120447_j53334903882346_1_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.GcnBlocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀

/-- The offsets of every access of the two bodies: the origin. -/
theorem hz : (![0, 0] : Fin 2 → Nat) = fun _ => 0 := funext fun a => by fin_cases a <;> rfl

variable (V : (c : Dev nD) → (b : Ref sig .tc) → Buf (Elt Ideal) ((c : Thread nD τ).loc b))

/-! # The first pallas_call: [50000, 256] × [256, 128] in ten bands of 5000 rows -/

/-- The body's stored value at an entry: the band's row against the weight's column. -/
theorem pay0_apply (x0 : Vec Ideal S5000x256 .bf16) (x1 : Vec Ideal S256x128 .bf16) (j : S5000x128.Idx) :
    k0_pay1 (F := Ideal) x0 x1 j = Cert.LibDense.prod (n := 5000) (K := 256) (d := 128) x0 x1 j := by
  unfold k0_pay1
  show FloatOps.matmul dot_S5000x256_S256x128_S5000x128_1_0_0_1_n_n none
    (shapeCast S5000x256 x0 Facts₀.shapeCasts_S5000x256_S5000x256) (shapeCast S256x128 x1 Facts₀.shapeCasts_S256x128_S256x128)
    (constant (F := Ideal) S5000x128 .f32 0x00000000#32) j = _
  rw [shapeCast_self, shapeCast_self]
  exact Cert.LibDense.matmul_plain (M := 5000) (K := 256) (N := 128) x0 x1 j

/-- Where the three windows' blocks sit at grid point `t`: the row operand's and the result's band `t`, the weight whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product, index by index. -/
abbrev whole0 (x : Vec Ideal S50000x256 .bf16) (w : Vec Ideal S256x128 .bf16) : Vec Ideal S50000x128 .f32 :=
  Cert.LibDense.prod (n := 50000) (K := 256) (d := 128) x w

/-- An entry (r, j) of a band's product is the entry (R, j) of the whole product, once the band's row `r` is the
    whole operand's row `R` and the band's weight is the whole weight. -/
theorem band0_entry (A : Vec Ideal S50000x256 .bf16) (W : Vec Ideal S256x128 .bf16)
    (x0 : Vec Ideal S5000x256 .bf16) (x1 : Vec Ideal S256x128 .bf16) (j : S5000x128.Idx) (i : S50000x128.Idx)
    (hx : ∀ k : Fin 256, x0 (ix2 (j 0) k) = A (ix2 (i 0) k)) (hw : ∀ k : Fin 256, x1 (ix2 k (j 1)) = W (ix2 k (i 1))) :
    k0_pay1 (F := Ideal) x0 x1 j = whole0 A W i := by
  refine (pay0_apply x0 x1 j).trans ?_
  show (∑ k : Fin 256, x0 (ix2 (j 0) k) * x1 (ix2 k (j 1))) = ∑ k : Fin 256, A (ix2 (i 0) k) * W (ix2 k (i 1))
  exact Finset.sum_congr rfl fun k _ => congrArg₂ (· * ·) (hx k) (hw k)

/-- WHAT POINT `t` WRITES BACK is band `t` of the whole product of the arrays as the call finds them: an entry of the
    band's product reads row `5000·t + r` of the row operand and a column of the weight. -/
theorem flushed0_eq (c : Dev nD) (t : Fin cfg0.N) :
    (dat0 (F := Ideal) V c).flushed 2 t
      = ((cfg0.win 2).blk t).view.read (Elt Ideal) (whole0 (V c main_v9) (V c main_v0)) := by
  show (cfg0.win 2).cut (grid0.coords t) ((dat0 (F := Ideal) V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx0 t
  funext j
  refine band0_entry (V c main_v9) (V c main_v0) (iblk0 V c 0 t) (iblk0 V c 1 t) j (((cfg0.win 2).blk t).view.emb j)
    (fun k => ?_) (fun k => ?_)
  · show V c main_v9 (((cfg0.win 0).blk t).view.emb (ix2 (j 0) k)) = V c main_v9 (ix2 ((((cfg0.win 2).blk t).view.emb j) 0) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V c main_v0 (((cfg0.win 1).blk t).view.emb (ix2 k (j 1))) = V c main_v0 (ix2 k ((((cfg0.win 2).blk t).view.emb j) 1))
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v10).slice (win0_2.rect t)).set ↔ _
  rw [View.set_slice_whole, Rect.mem_set_unit]
  exact Iff.rfl

/-- The ten bands cover the result array: row `r` is in band `r / 5000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  have ht : (i 0).val / 5000 < grid0.N := by omega
  obtain ⟨-, -, -, -, e4, e5⟩ := idx0 ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    omega

/-- THE RESULT ARRAY after the call is the whole product of the two operand arrays as the call finds them. -/
theorem final0 (c : Dev nD) :
    (dat0 (F := Ideal) V c).arrAt 2 cfg0.N = whole0 (V c main_v9) (V c main_v0) :=
  (dat0 (F := Ideal) V c).arrAt_eq_of_cover 2 _ (fun t _ => flushed0_eq V c t) cover0

/-! # The second pallas_call: [50000, 128] × [128, 64] in ten bands of 5000 rows -/

/-- The body's stored value at an entry: the band's row against the weight's column. -/
theorem pay1_apply (x0 : Vec Ideal S5000x128 .bf16) (x1 : Vec Ideal S128x64 .bf16) (j : S5000x64.Idx) :
    k1_pay1 (F := Ideal) x0 x1 j = Cert.LibDense.prod (n := 5000) (K := 128) (d := 64) x0 x1 j := by
  unfold k1_pay1
  show FloatOps.matmul dot_S5000x128_S128x64_S5000x64_1_0_0_1_n_n none
    (shapeCast S5000x128 x0 Facts₀.shapeCasts_S5000x128_S5000x128) (shapeCast S128x64 x1 Facts₀.shapeCasts_S128x64_S128x64)
    (constant (F := Ideal) S5000x64 .f32 0x00000000#32) j = _
  rw [shapeCast_self, shapeCast_self]
  exact Cert.LibDense.matmul_plain (M := 5000) (K := 128) (N := 64) x0 x1 j

/-- Where the three windows' blocks sit at grid point `t`: the row operand's and the result's band `t`, the weight whole. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole product, index by index. -/
abbrev whole1 (x : Vec Ideal S50000x128 .bf16) (w : Vec Ideal S128x64 .bf16) : Vec Ideal S50000x64 .f32 :=
  Cert.LibDense.prod (n := 50000) (K := 128) (d := 64) x w

/-- An entry (r, j) of a band's product is the entry (R, j) of the whole product, once the band's row `r` is the
    whole operand's row `R` and the band's weight is the whole weight. -/
theorem band1_entry (A : Vec Ideal S50000x128 .bf16) (W : Vec Ideal S128x64 .bf16)
    (x0 : Vec Ideal S5000x128 .bf16) (x1 : Vec Ideal S128x64 .bf16) (j : S5000x64.Idx) (i : S50000x64.Idx)
    (hx : ∀ k : Fin 128, x0 (ix2 (j 0) k) = A (ix2 (i 0) k)) (hw : ∀ k : Fin 128, x1 (ix2 k (j 1)) = W (ix2 k (i 1))) :
    k1_pay1 (F := Ideal) x0 x1 j = whole1 A W i := by
  refine (pay1_apply x0 x1 j).trans ?_
  show (∑ k : Fin 128, x0 (ix2 (j 0) k) * x1 (ix2 k (j 1))) = ∑ k : Fin 128, A (ix2 (i 0) k) * W (ix2 k (i 1))
  exact Finset.sum_congr rfl fun k _ => congrArg₂ (· * ·) (hx k) (hw k)

/-- WHAT POINT `t` WRITES BACK is band `t` of the whole product of the arrays as the call finds them: an entry of the
    band's product reads row `5000·t + r` of the row operand and a column of the weight. -/
theorem flushed1_eq (c : Dev nD) (t : Fin cfg1.N) :
    (dat1 (F := Ideal) V c).flushed 2 t
      = ((cfg1.win 2).blk t).view.read (Elt Ideal) (whole1 (V c main_v58) (V c main_v1)) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S128x64) hz]
  obtain ⟨e0, e1, e2, e3, e4, e5⟩ := idx1 t
  funext j
  refine band1_entry (V c main_v58) (V c main_v1) (iblk1 V c 0 t) (iblk1 V c 1 t) j (((cfg1.win 2).blk t).view.emb j)
    (fun k => ?_) (fun k => ?_)
  · show V c main_v58 (((cfg1.win 0).blk t).view.emb (ix2 (j 0) k)) = V c main_v58 (ix2 ((((cfg1.win 2).blk t).view.emb j) 0) k)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_v1 (((cfg1.win 1).blk t).view.emb (ix2 k (j 1))) = V c main_v1 (ix2 k ((((cfg1.win 2).blk t).view.emb j) 1))
    refine congrArg _ (funext fun a => Fin.ext ?_)
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega

/-- An index of the result array is in point `t`'s block iff each coordinate is in the block's range on its axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v59).slice (win1_2.rect t)).set ↔ _
  rw [View.set_slice_whole, Rect.mem_set_unit]
  exact Iff.rfl

/-- The ten bands cover the result array: row `r` is in band `r / 5000`. -/
theorem cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : grid1.N = 10 := N_1
  have ht : (i 0).val / 5000 < grid1.N := by omega
  obtain ⟨-, -, -, -, e4, e5⟩ := idx1 ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    omega

/-- THE RESULT ARRAY after the call is the whole product of the two operand arrays as the call finds them. -/
theorem final1 (c : Dev nD) :
    (dat1 (F := Ideal) V c).arrAt 2 cfg1.N = whole1 (V c main_v58) (V c main_v1) :=
  (dat1 (F := Ideal) V c).arrAt_eq_of_cover 2 _ (fun t _ => flushed1_eq V c t) cover1

end Cert.KernelIdeal.GcnBlocks

end
-- ==== Proof.KernelValue.lean ====
/-
  The kernel program's result, at the ideal values, is the specification's network `Cert.Gcn.gcn` of the six arguments.

  The run's buffer contents at the segment boundaries are a fold `W0, W1, …, W11` from the launch memory: a host
  stretch maps `Wk` to `after ops Wk`, a pallas_call replaces its result array by what its write-backs leave.  Level
  by level, each buffer a later level reads is identified: the message lists from the edge list, the operands of the
  first product (the features and the first weight, a change of float format being the identity here), the first
  product as the whole matrix product (the ten bands), the degrees and their inverse roots, the first aggregation and
  the rectifier, the second product, the second aggregation.  The matrix product of the two calls and the host's
  dot_general are one sum, `∑ k, x (r, k) · w (k, j)`.
-/
import proofs.«120447_j53334903882346_1_alg».proof.Proof.KernelStages
import proofs.«120447_j53334903882346_1_alg».proof.Proof.MatmulBlocks

set_option maxRecDepth 16384

noncomputable section

namespace Cert.KernelIdeal.GcnValue

open Idealize.ShloMosaic Idealize.ShloMosaic.TcCoe Idealize.SL.Sem Idealize.ShloMosaic.StableHlo
open Cert.KernelIdeal Cert.KernelIdeal.Gen Cert.KernelIdeal.Facts₀
open Cert.KernelIdeal.GcnStages Cert.KernelIdeal.GcnBlocks

variable [Cert.KernelIdeal.Facts] [Cert.ReferenceIdeal.Facts]

local notation "↑ᵣ" r => (Proc.devRef (τ := τ) (sig := sig) Proc.tc r)

/-! ## One sum: the bands' product of operands in the narrower format is the host's dot_general -/

theorem prod_eq_dot1 (x : FVec Ideal S50000x256 .f32) (w : FVec Ideal S256x128 .f32) :
    whole0 (truncf (F := Ideal) .bf16 x Facts₀.bitsLt_bf16_f32) (truncf (F := Ideal) .bf16 w Facts₀.bitsLt_bf16_f32)
      = Host.dotGeneral (F := Ideal) (φ₁ := .f32) (φ₂ := .f32) Cert.ReferenceIdeal.dot_S50000x256_S256x128_S50000x128_1_0_0_1_n_n none x w := by
  funext i
  exact (Cert.LibDense.dotGeneral_plain (M := 50000) (K := 256) (N := 128) .single x w i).symm

theorem prod_eq_dot2 (x : FVec Ideal S50000x128 .f32) (w : FVec Ideal S128x64 .f32) :
    whole1 (truncf (F := Ideal) .bf16 x Facts₀.bitsLt_bf16_f32) (truncf (F := Ideal) .bf16 w Facts₀.bitsLt_bf16_f32)
      = Host.dotGeneral (F := Ideal) (φ₁ := .f32) (φ₂ := .f32) Cert.ReferenceIdeal.dot_S50000x128_S128x64_S50000x64_1_0_0_1_n_n none x w := by
  funext i
  exact (Cert.LibDense.dotGeneral_plain (M := 50000) (K := 128) (N := 64) .single x w i).symm

variable (m : (ℓ : Loc nD τ sig) → Buf (Elt Ideal) ℓ) (ρ : Dev nD → PrngReg) (c : Dev nD)

/-- The six arguments as launched, at their array types. -/
abbrev aX : FVec Ideal S50000x256 .f32 := m ((c : Thread nD τ).loc main_arg0)
abbrev aE : IVec S2x800000 32 := m ((c : Thread nD τ).loc main_arg1)
abbrev aW1 : FVec Ideal S256x128 .f32 := m ((c : Thread nD τ).loc main_arg2)
abbrev aB1 : FVec Ideal S128 .f32 := m ((c : Thread nD τ).loc main_arg3)
abbrev aW2 : FVec Ideal S128x64 .f32 := m ((c : Thread nD τ).loc main_arg4)
abbrev aB2 : FVec Ideal S64 .f32 := m ((c : Thread nD τ).loc main_arg5)

/-! ## Level 1: after the first host stretch -/

theorem l1_e : W1 m ρ c (↑ᵣ main_arg1) = aE m c := (s0_keep (W0 m ρ c)).1
theorem l1_b1 : W1 m ρ c (↑ᵣ main_arg3) = aB1 m c := (s0_keep (W0 m ρ c)).2.1
theorem l1_b2 : W1 m ρ c (↑ᵣ main_arg5) = aB2 m c := (s0_keep (W0 m ρ c)).2.2
theorem l1_src : W1 m ρ c (↑ᵣ main_v7) = Cert.Gcn.srcIdx (aE m c) := s0_src (W0 m ρ c)
theorem l1_dst : W1 m ρ c (↑ᵣ main_v8) = Cert.Gcn.dstIdx (aE m c) := s0_dst (W0 m ρ c)
theorem l1_x : W1 m ρ c (↑ᵣ main_v9) = truncf (F := Ideal) .bf16 (aX m c) Facts₀.bitsLt_bf16_f32 := s0_x (W0 m ρ c)
theorem l1_w1 : W1 m ρ c (↑ᵣ main_v0) = truncf (F := Ideal) .bf16 (aW1 m c) Facts₀.bitsLt_bf16_f32 := s0_w1 (W0 m ρ c)
theorem l1_w2 : W1 m ρ c (↑ᵣ main_v1) = truncf (F := Ideal) .bf16 (aW2 m c) Facts₀.bitsLt_bf16_f32 := s0_w2 (W0 m ρ c)

/-! ## Level 2: after the first pallas_call -/

theorem l2_e : W2 m ρ c (↑ᵣ main_arg1) = aE m c := (W2_of_ne m ρ c main_arg1 (by decide)).trans (l1_e m ρ c)
theorem l2_b1 : W2 m ρ c (↑ᵣ main_arg3) = aB1 m c := (W2_of_ne m ρ c main_arg3 (by decide)).trans (l1_b1 m ρ c)
theorem l2_b2 : W2 m ρ c (↑ᵣ main_arg5) = aB2 m c := (W2_of_ne m ρ c main_arg5 (by decide)).trans (l1_b2 m ρ c)
theorem l2_src : W2 m ρ c (↑ᵣ main_v7) = Cert.Gcn.srcIdx (aE m c) := (W2_of_ne m ρ c main_v7 (by decide)).trans (l1_src m ρ c)
theorem l2_dst : W2 m ρ c (↑ᵣ main_v8) = Cert.Gcn.dstIdx (aE m c) := (W2_of_ne m ρ c main_v8 (by decide)).trans (l1_dst m ρ c)
theorem l2_w2 : W2 m ρ c (↑ᵣ main_v1) = truncf (F := Ideal) .bf16 (aW2 m c) Facts₀.bitsLt_bf16_f32 := (W2_of_ne m ρ c main_v1 (by decide)).trans (l1_w2 m ρ c)
/-- The first projection: the whole product `x · W1`. -/
theorem l2_h : W2 m ρ c (↑ᵣ main_v10)
    = Host.dotGeneral (F := Ideal) (φ₁ := .f32) (φ₂ := .f32) Cert.ReferenceIdeal.dot_S50000x256_S256x128_S50000x128_1_0_0_1_n_n none
        (aX m c) (aW1 m c) := by
  refine (W2_arr m ρ c 2).trans ((final0 (V1 m ρ) c).trans ?_)
  show whole0 (W1 m ρ c (↑ᵣ main_v9)) (W1 m ρ c (↑ᵣ main_v0)) = _
  rw [l1_x, l1_w1]
  exact prod_eq_dot1 _ _

/-! ## Levels 3 and 4: the degrees and their inverse roots -/

theorem l3_pos : W3 m ρ c (↑ᵣ main_v16) = Cert.Gcn.degPos (F := Ideal) (Cert.Gcn.dstIdx (aE m c)) :=
  (s1_pos (W2 m ρ c)).trans (congrArg (Cert.Gcn.degPos (F := Ideal)) (l2_dst m ρ c))
theorem l3_rs : W3 m ρ c (↑ᵣ main_v17) = Host.rsqrt (Cert.Gcn.deg (F := Ideal) (Cert.Gcn.dstIdx (aE m c))) :=
  (s1_rs (W2 m ρ c)).trans (congrArg (fun d => Host.rsqrt (Cert.Gcn.deg (F := Ideal) d)) (l2_dst m ρ c))
theorem l3_z : W3 m ρ c (↑ᵣ main_cst_2) = constant (F := Ideal) Cert.ReferenceIdeal.S_ .f32 0x00000000#32 := s1_z (W2 m ρ c)
theorem l3_e : W3 m ρ c (↑ᵣ main_arg1) = (aE m c) := (s1_keep (W2 m ρ c)).1.trans (l2_e m ρ c)
theorem l3_b1 : W3 m ρ c (↑ᵣ main_arg3) = (aB1 m c) := (s1_keep (W2 m ρ c)).2.1.trans (l2_b1 m ρ c)
theorem l3_b2 : W3 m ρ c (↑ᵣ main_arg5) = (aB2 m c) := (s1_keep (W2 m ρ c)).2.2.1.trans (l2_b2 m ρ c)
theorem l3_w2 : W3 m ρ c (↑ᵣ main_v1) = truncf (F := Ideal) .bf16 (aW2 m c) Facts₀.bitsLt_bf16_f32 := (s1_keep (W2 m ρ c)).2.2.2.1.trans (l2_w2 m ρ c)
theorem l3_src : W3 m ρ c (↑ᵣ main_v7) = (Cert.Gcn.srcIdx (aE m c)) := (s1_keep (W2 m ρ c)).2.2.2.2.1.trans (l2_src m ρ c)
theorem l3_dst : W3 m ρ c (↑ᵣ main_v8) = (Cert.Gcn.dstIdx (aE m c)) := (s1_keep (W2 m ρ c)).2.2.2.2.2.1.trans (l2_dst m ρ c)
theorem l3_h : W3 m ρ c (↑ᵣ main_v10) = (Host.dotGeneral (F := Ideal) (φ₁ := .f32) (φ₂ := .f32) Cert.ReferenceIdeal.dot_S50000x256_S256x128_S50000x128_1_0_0_1_n_n none (aX m c) (aW1 m c)) := (s1_keep (W2 m ρ c)).2.2.2.2.2.2.trans (l2_h m ρ c)

theorem l4_dinv : W4 m ρ c (↑ᵣ main_v18) = (Cert.Gcn.dinv (F := Ideal) (Cert.Gcn.dstIdx (aE m c))) :=
  (s1_1_dinv (W3 m ρ c)).trans (by rw [l3_pos, l3_rs, l3_z]; rfl)
theorem l4_e : W4 m ρ c (↑ᵣ main_arg1) = (aE m c) := (s1_1_keep (W3 m ρ c)).1.trans (l3_e m ρ c)
theorem l4_b1 : W4 m ρ c (↑ᵣ main_arg3) = (aB1 m c) := (s1_1_keep (W3 m ρ c)).2.1.trans (l3_b1 m ρ c)
theorem l4_b2 : W4 m ρ c (↑ᵣ main_arg5) = (aB2 m c) := (s1_1_keep (W3 m ρ c)).2.2.1.trans (l3_b2 m ρ c)
theorem l4_w2 : W4 m ρ c (↑ᵣ main_v1) = truncf (F := Ideal) .bf16 (aW2 m c) Facts₀.bitsLt_bf16_f32 := (s1_1_keep (W3 m ρ c)).2.2.2.1.trans (l3_w2 m ρ c)
theorem l4_src : W4 m ρ c (↑ᵣ main_v7) = (Cert.Gcn.srcIdx (aE m c)) := (s1_1_keep (W3 m ρ c)).2.2.2.2.1.trans (l3_src m ρ c)
theorem l4_dst : W4 m ρ c (↑ᵣ main_v8) = (Cert.Gcn.dstIdx (aE m c)) := (s1_1_keep (W3 m ρ c)).2.2.2.2.2.1.trans (l3_dst m ρ c)
theorem l4_h : W4 m ρ c (↑ᵣ main_v10) = (Host.dotGeneral (F := Ideal) (φ₁ := .f32) (φ₂ := .f32) Cert.ReferenceIdeal.dot_S50000x256_S256x128_S50000x128_1_0_0_1_n_n none (aX m c) (aW1 m c)) := (s1_1_keep (W3 m ρ c)).2.2.2.2.2.2.trans (l3_h m ρ c)

/-! ## Levels 5 to 7: the first aggregation, the rectifier, the second product's operands -/

theorem l5_agg : W5 m ρ c (↑ᵣ main_v49) = Cert.Gcn.agg128 (Cert.Gcn.srcIdx (aE m c)) (Cert.Gcn.dstIdx (aE m c)) (Cert.Gcn.dinv (F := Ideal) (Cert.Gcn.dstIdx (aE m c))) (Host.dotGeneral (F := Ideal) (φ₁ := .f32) (φ₂ := .f32) Cert.ReferenceIdeal.dot_S50000x256_S256x128_S50000x128_1_0_0_1_n_n none (aX m c) (aW1 m c)) (aB1 m c) :=
  (s1_2_agg (W4 m ρ c)).trans (by rw [l4_src, l4_dst, l4_dinv, l4_h, l4_b1])
theorem l5_e : W5 m ρ c (↑ᵣ main_arg1) = (aE m c) := (s1_2_keep (W4 m ρ c)).1.trans (l4_e m ρ c)
theorem l5_b2 : W5 m ρ c (↑ᵣ main_arg5) = (aB2 m c) := (s1_2_keep (W4 m ρ c)).2.1.trans (l4_b2 m ρ c)
theorem l5_w2 : W5 m ρ c (↑ᵣ main_v1) = truncf (F := Ideal) .bf16 (aW2 m c) Facts₀.bitsLt_bf16_f32 := (s1_2_keep (W4 m ρ c)).2.2.trans (l4_w2 m ρ c)

theorem l6_hid : W6 m ρ c (↑ᵣ main_v50) = (Cert.Gcn.hidden (F := Ideal) (aE m c) (Host.dotGeneral (F := Ideal) (φ₁ := .f32) (φ₂ := .f32) Cert.ReferenceIdeal.dot_S50000x256_S256x128_S50000x128_1_0_0_1_n_n none (aX m c) (aW1 m c)) (aB1 m c)) :=
  (s1_3_relu (W5 m ρ c)).trans (by rw [l5_agg]; rfl)
theorem l6_e : W6 m ρ c (↑ᵣ main_arg1) = (aE m c) := (s1_3_keep (W5 m ρ c)).1.trans (l5_e m ρ c)
theorem l6_b2 : W6 m ρ c (↑ᵣ main_arg5) = (aB2 m c) := (s1_3_keep (W5 m ρ c)).2.1.trans (l5_b2 m ρ c)
theorem l6_w2 : W6 m ρ c (↑ᵣ main_v1) = truncf (F := Ideal) .bf16 (aW2 m c) Facts₀.bitsLt_bf16_f32 := (s1_3_keep (W5 m ρ c)).2.2.trans (l5_w2 m ρ c)

theorem l7_src : W7 m ρ c (↑ᵣ main_v56) = (Cert.Gcn.srcIdx (aE m c)) := (s1_4_src (W6 m ρ c)).trans (congrArg Cert.Gcn.srcIdx (l6_e m ρ c))
theorem l7_dst : W7 m ρ c (↑ᵣ main_v57) = (Cert.Gcn.dstIdx (aE m c)) := (s1_4_dst (W6 m ρ c)).trans (congrArg Cert.Gcn.dstIdx (l6_e m ρ c))
theorem l7_x : W7 m ρ c (↑ᵣ main_v58) = truncf (F := Ideal) .bf16 (Cert.Gcn.hidden (F := Ideal) (aE m c) (Host.dotGeneral (F := Ideal) (φ₁ := .f32) (φ₂ := .f32) Cert.ReferenceIdeal.dot_S50000x256_S256x128_S50000x128_1_0_0_1_n_n none (aX m c) (aW1 m c)) (aB1 m c)) Facts₀.bitsLt_bf16_f32 :=
  (s1_4_x (W6 m ρ c)).trans (by rw [l6_hid])
theorem l7_b2 : W7 m ρ c (↑ᵣ main_arg5) = (aB2 m c) := (s1_4_keep (W6 m ρ c)).1.trans (l6_b2 m ρ c)
theorem l7_w2 : W7 m ρ c (↑ᵣ main_v1) = truncf (F := Ideal) .bf16 (aW2 m c) Facts₀.bitsLt_bf16_f32 := (s1_4_keep (W6 m ρ c)).2.trans (l6_w2 m ρ c)

/-! ## Level 8: after the second pallas_call -/

/-- The second projection: the whole product `hidden · W2`. -/
theorem l8_h : W8 m ρ c (↑ᵣ main_v59) = (Host.dotGeneral (F := Ideal) (φ₁ := .f32) (φ₂ := .f32) Cert.ReferenceIdeal.dot_S50000x128_S128x64_S50000x64_1_0_0_1_n_n none (Cert.Gcn.hidden (F := Ideal) (aE m c) (Host.dotGeneral (F := Ideal) (φ₁ := .f32) (φ₂ := .f32) Cert.ReferenceIdeal.dot_S50000x256_S256x128_S50000x128_1_0_0_1_n_n none (aX m c) (aW1 m c)) (aB1 m c)) (aW2 m c)) := by
  refine (W8_arr m ρ c 2).trans ((final1 (V7 m ρ) c).trans ?_)
  show whole1 (W7 m ρ c (↑ᵣ main_v58)) (W7 m ρ c (↑ᵣ main_v1)) = _
  rw [l7_x, l7_w2]
  exact prod_eq_dot2 _ _
theorem l8_src : W8 m ρ c (↑ᵣ main_v56) = (Cert.Gcn.srcIdx (aE m c)) := (W8_of_ne m ρ c main_v56 (by decide)).trans (l7_src m ρ c)
theorem l8_dst : W8 m ρ c (↑ᵣ main_v57) = (Cert.Gcn.dstIdx (aE m c)) := (W8_of_ne m ρ c main_v57 (by decide)).trans (l7_dst m ρ c)
theorem l8_b2 : W8 m ρ c (↑ᵣ main_arg5) = (aB2 m c) := (W8_of_ne m ρ c main_arg5 (by decide)).trans (l7_b2 m ρ c)

/-! ## Levels 9 to 11: the output layer -/

theorem l9_pos : W9 m ρ c (↑ᵣ main_v65) = Cert.Gcn.degPos (F := Ideal) (Cert.Gcn.dstIdx (aE m c)) :=
  (s2_pos (W8 m ρ c)).trans (congrArg (Cert.Gcn.degPos (F := Ideal)) (l8_dst m ρ c))
theorem l9_rs : W9 m ρ c (↑ᵣ main_v66) = Host.rsqrt (Cert.Gcn.deg (F := Ideal) (Cert.Gcn.dstIdx (aE m c))) :=
  (s2_rs (W8 m ρ c)).trans (congrArg (fun d => Host.rsqrt (Cert.Gcn.deg (F := Ideal) d)) (l8_dst m ρ c))
theorem l9_z : W9 m ρ c (↑ᵣ main_cst_12) = constant (F := Ideal) Cert.ReferenceIdeal.S_ .f32 0x00000000#32 := s2_z (W8 m ρ c)
theorem l9_b2 : W9 m ρ c (↑ᵣ main_arg5) = (aB2 m c) := (s2_keep (W8 m ρ c)).1.trans (l8_b2 m ρ c)
theorem l9_src : W9 m ρ c (↑ᵣ main_v56) = (Cert.Gcn.srcIdx (aE m c)) := (s2_keep (W8 m ρ c)).2.1.trans (l8_src m ρ c)
theorem l9_dst : W9 m ρ c (↑ᵣ main_v57) = (Cert.Gcn.dstIdx (aE m c)) := (s2_keep (W8 m ρ c)).2.2.1.trans (l8_dst m ρ c)
theorem l9_h : W9 m ρ c (↑ᵣ main_v59) = (Host.dotGeneral (F := Ideal) (φ₁ := .f32) (φ₂ := .f32) Cert.ReferenceIdeal.dot_S50000x128_S128x64_S50000x64_1_0_0_1_n_n none (Cert.Gcn.hidden (F := Ideal) (aE m c) (Host.dotGeneral (F := Ideal) (φ₁ := .f32) (φ₂ := .f32) Cert.ReferenceIdeal.dot_S50000x256_S256x128_S50000x128_1_0_0_1_n_n none (aX m c) (aW1 m c)) (aB1 m c)) (aW2 m c)) := (s2_keep (W8 m ρ c)).2.2.2.trans (l8_h m ρ c)

theorem l10_dinv : W10 m ρ c (↑ᵣ main_v67) = (Cert.Gcn.dinv (F := Ideal) (Cert.Gcn.dstIdx (aE m c))) :=
  (s2_1_dinv (W9 m ρ c)).trans (by rw [l9_pos, l9_rs, l9_z]; rfl)
theorem l10_b2 : W10 m ρ c (↑ᵣ main_arg5) = (aB2 m c) := (s2_1_keep (W9 m ρ c)).1.trans (l9_b2 m ρ c)
theorem l10_src : W10 m ρ c (↑ᵣ main_v56) = (Cert.Gcn.srcIdx (aE m c)) := (s2_1_keep (W9 m ρ c)).2.1.trans (l9_src m ρ c)
theorem l10_dst : W10 m ρ c (↑ᵣ main_v57) = (Cert.Gcn.dstIdx (aE m c)) := (s2_1_keep (W9 m ρ c)).2.2.1.trans (l9_dst m ρ c)
theorem l10_h : W10 m ρ c (↑ᵣ main_v59) = (Host.dotGeneral (F := Ideal) (φ₁ := .f32) (φ₂ := .f32) Cert.ReferenceIdeal.dot_S50000x128_S128x64_S50000x64_1_0_0_1_n_n none (Cert.Gcn.hidden (F := Ideal) (aE m c) (Host.dotGeneral (F := Ideal) (φ₁ := .f32) (φ₂ := .f32) Cert.ReferenceIdeal.dot_S50000x256_S256x128_S50000x128_1_0_0_1_n_n none (aX m c) (aW1 m c)) (aB1 m c)) (aW2 m c)) := (s2_1_keep (W9 m ρ c)).2.2.2.trans (l9_h m ρ c)

/-- THE RESULT BUFFER at the last boundary is the network of the six arguments. -/
theorem value : W11 m ρ c (↑ᵣ main_v98)
    = Cert.Gcn.gcn (F := Ideal) (aX m c) (aE m c) (aW1 m c) (aB1 m c) (aW2 m c) (aB2 m c) :=
  (s2_2_agg (W10 m ρ c)).trans (by rw [l10_src, l10_dst, l10_dinv, l10_h, l10_b2]; rfl)

end Cert.KernelIdeal.GcnValue

end
-- ==== Proof.RefStages.lean ====
/-
  The reference program, stretch by stretch, and its result as the specification's network.

  The reference is a straight line of 123 array operations.  Cut at its two matrix products it is the same sequence
  of stretches as the kernel's program has around its two pallas_calls: the message lists, the degrees and their
  inverse roots, an aggregation, the rectifier — twice.  Each stretch is read over ANY contents `V` of the buffers
  it starts from, as the specification's functions (`Cert.Gcn`) of what it found; the run's fold over all 123
  operations is the fold over the stretches in order, and composing the readings gives `Cert.Gcn.gcn` of the six
  arguments.
-/
import proofs.«120447_j53334903882346_1_alg».proof.Proof.GcnSpec
import proofs.«120447_j53334903882346_1_alg».proof.Proof.RefRunPatched

set_option maxRecDepth 16384

noncomputable section

namespace Cert.ReferenceIdeal.GcnStages

open Idealize.ShloMosaic Idealize.ShloMosaic.TcCoe Idealize.SL.Sem Idealize.ShloMosaic.StableHlo
open Cert.ReferenceIdeal Cert.ReferenceIdeal.Gen

variable {F : FTy → Type} [FloatOps F]

local notation "↑ᵣ" r => (Proc.devRef (τ := τ) (sig := sig) Proc.tc r)

/-! ## The stretches -/

/-- The message lists: the two rows of the edge list, each followed by the node numbers. -/
abbrev R0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The first projection. -/
abbrev D1 : List (HloOp τ sig (Elt F)) :=
  [ binary main_arg0 main_arg2 main_v7 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]

/-- The degrees, whether each is positive, their inverse roots. -/
abbrev R1 : List (HloOp τ sig (Elt F)) :=
  [ nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32) ]

/-- The inverse root where the degree is positive, zero elsewhere. -/
abbrev R1_1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select ]

/-- The first aggregation and its bias. -/
abbrev R1_2 : List (HloOp τ sig (Elt F)) :=
  [ nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v5 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v5 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v5 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v5 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v5 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v7 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)) ]

/-- The rectifier. -/
abbrev R1_3 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- The message lists again. -/
abbrev R1_4 : List (HloOp τ sig (Elt F)) :=
  [ unary main_arg1 main_v48 ((extractStridedSlice S1x800000 ![0, 0] · slices_S2x800000_S1x800000_0_0) : (⟨S2x800000, .i32⟩ : BufTy).Contents (Elt F) → (⟨S1x800000, .i32⟩ : BufTy).Contents (Elt F)),
    reshape main_v48 main_v49 rfl shapeCasts_S1x800000_S800000,
    unary main_arg1 main_v50 ((extractStridedSlice S1x800000 ![1, 0] · slices_S2x800000_S1x800000_1_0) : (⟨S2x800000, .i32⟩ : BufTy).Contents (Elt F) → (⟨S1x800000, .i32⟩ : BufTy).Contents (Elt F)),
    reshape main_v50 main_v51 rfl shapeCasts_S1x800000_S800000,
    nullary main_v52 (iotaInDim S50000 32 0),
    binary main_v49 main_v52 main_v53 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v51 main_v52 main_v54 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The second projection. -/
abbrev D2 : List (HloOp τ sig (Elt F)) :=
  [ binary main_v47 main_arg4 main_v55 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- The degrees again. -/
abbrev R2 : List (HloOp τ sig (Elt F)) :=
  [ nullary main_cst_9 (constant S_ .f32 0x3F800000#32),
    unary main_cst_9 main_v56 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v57 (broadcastInDim S50000 ![] bcast_S_S50000 : (⟨S_, .f32⟩ : BufTy).Contents (Elt F) → (⟨S50000, .f32⟩ : BufTy).Contents (Elt F)),
    unary main_v54 main_v58 (broadcastInDim S850000x1 ![0] bcast_S850000_S850000x1_0 : (⟨S850000, .i32⟩ : BufTy).Contents (Elt F) → (⟨S850000x1, .i32⟩ : BufTy).Contents (Elt F)),
    ternary main_v57 main_v58 main_v56 main_v59 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v60 (broadcastInDim S50000 ![] bcast_S_S50000 : (⟨S_, .f32⟩ : BufTy).Contents (Elt F) → (⟨S50000, .f32⟩ : BufTy).Contents (Elt F)),
    binary main_v59 main_v60 main_v61 (cmpf .ogt : (⟨S50000, .f32⟩ : BufTy).Contents (Elt F) → (⟨S50000, .f32⟩ : BufTy).Contents (Elt F) → (⟨S50000, .i1⟩ : BufTy).Contents (Elt F)),
    unary main_v59 main_v62 (Host.rsqrt : (⟨S50000, .f32⟩ : BufTy).Contents (Elt F) → (⟨S50000, .f32⟩ : BufTy).Contents (Elt F)),
    nullary main_cst_12 (constant S_ .f32 0x00000000#32) ]

/-- Their inverse roots again. -/
abbrev R2_1 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v61) (TRef.of (T := ⟨S50000, .f32⟩) main_v62) (TRef.of (T := ⟨S50000, .f32⟩) main_call2_v1) (TRef.of (T := ⟨S50000, .f32⟩) main_v63) select ]

/-- The second aggregation and its bias. -/
abbrev R2_2 : List (HloOp τ sig (Elt F)) :=
  [ nullary main_c_13 (constantI S_ 32 0#32),
    unary main_c_13 main_v64 (broadcastInDim S850000 ![] bcast_S_S850000 : (⟨S_, .i32⟩ : BufTy).Contents (Elt F) → (⟨S850000, .i32⟩ : BufTy).Contents (Elt F)),
    binary main_v53 main_v64 main_v65 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v66 (broadcastInDim S850000 ![] bcast_S_S850000 : (⟨S_, .i32⟩ : BufTy).Contents (Elt F) → (⟨S850000, .i32⟩ : BufTy).Contents (Elt F)),
    binary main_v53 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v53 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v63 main_v69 main_v70 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v71 (broadcastInDim S850000 ![] bcast_S_S850000 : (⟨S_, .i32⟩ : BufTy).Contents (Elt F) → (⟨S850000, .i32⟩ : BufTy).Contents (Elt F)),
    binary main_v54 main_v71 main_v72 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v73 (broadcastInDim S850000 ![] bcast_S_S850000 : (⟨S_, .i32⟩ : BufTy).Contents (Elt F) → (⟨S850000, .i32⟩ : BufTy).Contents (Elt F)),
    binary main_v54 main_v73 main_v74 (addi : (⟨S850000, .i32⟩ : BufTy).Contents (Elt F) → (⟨S850000, .i32⟩ : BufTy).Contents (Elt F) → (⟨S850000, .i32⟩ : BufTy).Contents (Elt F)),
    ternary main_v72 main_v74 main_v54 main_v75 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v75 main_v76 (broadcastInDim S850000x1 ![0] bcast_S850000_S850000x1_0 : (⟨S850000, .i32⟩ : BufTy).Contents (Elt F) → (⟨S850000x1, .i32⟩ : BufTy).Contents (Elt F)),
    binary main_v63 main_v76 main_v77 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v70 main_v77 main_v78 (mulf : (⟨S850000, .f32⟩ : BufTy).Contents (Elt F) → (⟨S850000, .f32⟩ : BufTy).Contents (Elt F) → (⟨S850000, .f32⟩ : BufTy).Contents (Elt F)),
    nullary main_c_17 (constantI S_ 32 0#32),
    unary main_c_17 main_v79 (broadcastInDim S850000 ![] bcast_S_S850000 : (⟨S_, .i32⟩ : BufTy).Contents (Elt F) → (⟨S850000, .i32⟩ : BufTy).Contents (Elt F)),
    binary main_v53 main_v79 main_v80 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v81 (broadcastInDim S850000 ![] bcast_S_S850000 : (⟨S_, .i32⟩ : BufTy).Contents (Elt F) → (⟨S850000, .i32⟩ : BufTy).Contents (Elt F)),
    binary main_v53 main_v81 main_v82 (addi : (⟨S850000, .i32⟩ : BufTy).Contents (Elt F) → (⟨S850000, .i32⟩ : BufTy).Contents (Elt F) → (⟨S850000, .i32⟩ : BufTy).Contents (Elt F)),
    ternary main_v80 main_v82 main_v53 main_v83 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v83 main_v84 (broadcastInDim S850000x1 ![0] bcast_S850000_S850000x1_0 : (⟨S850000, .i32⟩ : BufTy).Contents (Elt F) → (⟨S850000x1, .i32⟩ : BufTy).Contents (Elt F)),
    binary main_v55 main_v84 main_v85 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v78 main_v86 (broadcastInDim S850000x1 ![0] bcast_S850000_S850000x1_0 : (⟨S850000, .f32⟩ : BufTy).Contents (Elt F) → (⟨S850000x1, .f32⟩ : BufTy).Contents (Elt F)),
    unary main_v86 main_v87 (broadcastInDim S850000x64 ![0, 1] bcast_S850000x1_S850000x64_0_1 : (⟨S850000x1, .f32⟩ : BufTy).Contents (Elt F) → (⟨S850000x64, .f32⟩ : BufTy).Contents (Elt F)),
    binary main_v85 main_v87 main_v88 (mulf : (⟨S850000x64, .f32⟩ : BufTy).Contents (Elt F) → (⟨S850000x64, .f32⟩ : BufTy).Contents (Elt F) → (⟨S850000x64, .f32⟩ : BufTy).Contents (Elt F)),
    nullary main_cst_19 (constant S_ .f32 0x00000000#32),
    unary main_cst_19 main_v89 (broadcastInDim S50000x64 ![] bcast_S_S50000x64 : (⟨S_, .f32⟩ : BufTy).Contents (Elt F) → (⟨S50000x64, .f32⟩ : BufTy).Contents (Elt F)),
    unary main_v54 main_v90 (broadcastInDim S850000x1 ![0] bcast_S850000_S850000x1_0 : (⟨S850000, .i32⟩ : BufTy).Contents (Elt F) → (⟨S850000x1, .i32⟩ : BufTy).Contents (Elt F)),
    ternary main_v89 main_v90 main_v88 main_v91 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v92 (broadcastInDim S1x64 ![1] bcast_S64_S1x64_1 : (⟨S64, .f32⟩ : BufTy).Contents (Elt F) → (⟨S1x64, .f32⟩ : BufTy).Contents (Elt F)),
    unary main_v92 main_v93 (broadcastInDim S50000x64 ![0, 1] bcast_S1x64_S50000x64_0_1 : (⟨S1x64, .f32⟩ : BufTy).Contents (Elt F) → (⟨S50000x64, .f32⟩ : BufTy).Contents (Elt F)),
    binary main_v91 main_v93 main_v94 (addf : (⟨S50000x64, .f32⟩ : BufTy).Contents (Elt F) → (⟨S50000x64, .f32⟩ : BufTy).Contents (Elt F) → (⟨S50000x64, .f32⟩ : BufTy).Contents (Elt F)) ]

/-- The buffer contents after each stretch, from contents `V`. -/
abbrev U1 (V : Valuation τ sig (Elt F)) : Valuation τ sig (Elt F) := after R0 V
abbrev U2 (V : Valuation τ sig (Elt F)) : Valuation τ sig (Elt F) := after D1 (U1 V)
abbrev U3 (V : Valuation τ sig (Elt F)) : Valuation τ sig (Elt F) := after R1 (U2 V)
abbrev U4 (V : Valuation τ sig (Elt F)) : Valuation τ sig (Elt F) := after R1_1 (U3 V)
abbrev U5 (V : Valuation τ sig (Elt F)) : Valuation τ sig (Elt F) := after R1_2 (U4 V)
abbrev U6 (V : Valuation τ sig (Elt F)) : Valuation τ sig (Elt F) := after R1_3 (U5 V)
abbrev U7 (V : Valuation τ sig (Elt F)) : Valuation τ sig (Elt F) := after R1_4 (U6 V)
abbrev U8 (V : Valuation τ sig (Elt F)) : Valuation τ sig (Elt F) := after D2 (U7 V)
abbrev U9 (V : Valuation τ sig (Elt F)) : Valuation τ sig (Elt F) := after R2 (U8 V)
abbrev U10 (V : Valuation τ sig (Elt F)) : Valuation τ sig (Elt F) := after R2_1 (U9 V)
abbrev U11 (V : Valuation τ sig (Elt F)) : Valuation τ sig (Elt F) := after R2_2 (U10 V)

/-- The fold over the 123 operations is the fold over the stretches in order. -/
theorem after_ops (V : Valuation τ sig (Elt F)) : after (ValueP.ops (F := F)) V = U11 V := rfl

variable (V : Valuation τ sig (Elt F))

/-! ## Each stretch over any contents -/

theorem r0_src : after (R0 (F := F)) V (↑ᵣ main_v5) = Cert.Gcn.srcIdx (V (↑ᵣ main_arg1)) := by
  after_results <;> rfl
theorem r0_dst : after (R0 (F := F)) V (↑ᵣ main_v6) = Cert.Gcn.dstIdx (V (↑ᵣ main_arg1)) := by
  after_results <;> rfl
theorem r0_keep : after (R0 (F := F)) V (↑ᵣ main_arg0) = V (↑ᵣ main_arg0)
    ∧ after (R0 (F := F)) V (↑ᵣ main_arg1) = V (↑ᵣ main_arg1)
    ∧ after (R0 (F := F)) V (↑ᵣ main_arg2) = V (↑ᵣ main_arg2)
    ∧ after (R0 (F := F)) V (↑ᵣ main_arg3) = V (↑ᵣ main_arg3)
    ∧ after (R0 (F := F)) V (↑ᵣ main_arg4) = V (↑ᵣ main_arg4)
    ∧ after (R0 (F := F)) V (↑ᵣ main_arg5) = V (↑ᵣ main_arg5) := by
  refine ⟨?_, ?_, ?_, ?_, ?_, ?_⟩ <;> after_results

theorem d1_h : after (D1 (F := F)) V (↑ᵣ main_v7)
    = Host.dotGeneral dot_S50000x256_S256x128_S50000x128_1_0_0_1_n_n none (V (↑ᵣ main_arg0)) (V (↑ᵣ main_arg2)) := by
  after_results <;> rfl
theorem d1_keep : after (D1 (F := F)) V (↑ᵣ main_arg1) = V (↑ᵣ main_arg1)
    ∧ after (D1 (F := F)) V (↑ᵣ main_arg3) = V (↑ᵣ main_arg3)
    ∧ after (D1 (F := F)) V (↑ᵣ main_arg4) = V (↑ᵣ main_arg4)
    ∧ after (D1 (F := F)) V (↑ᵣ main_arg5) = V (↑ᵣ main_arg5)
    ∧ after (D1 (F := F)) V (↑ᵣ main_v5) = V (↑ᵣ main_v5)
    ∧ after (D1 (F := F)) V (↑ᵣ main_v6) = V (↑ᵣ main_v6) := by
  refine ⟨?_, ?_, ?_, ?_, ?_, ?_⟩ <;> after_results

theorem r1_pos : after (R1 (F := F)) V (↑ᵣ main_v13) = Cert.Gcn.degPos (F := F) (V (↑ᵣ main_v6)) := by
  after_results <;> rfl
theorem r1_rs : after (R1 (F := F)) V (↑ᵣ main_v14) = Host.rsqrt (Cert.Gcn.deg (F := F) (V (↑ᵣ main_v6))) := by
  after_results <;> rfl
theorem r1_z : after (R1 (F := F)) V (↑ᵣ main_cst_2) = constant (F := F) S_ .f32 0x00000000#32 := by
  after_results <;> rfl
theorem r1_keep : after (R1 (F := F)) V (↑ᵣ main_arg1) = V (↑ᵣ main_arg1)
    ∧ after (R1 (F := F)) V (↑ᵣ main_arg3) = V (↑ᵣ main_arg3)
    ∧ after (R1 (F := F)) V (↑ᵣ main_arg4) = V (↑ᵣ main_arg4)
    ∧ after (R1 (F := F)) V (↑ᵣ main_arg5) = V (↑ᵣ main_arg5)
    ∧ after (R1 (F := F)) V (↑ᵣ main_v5) = V (↑ᵣ main_v5)
    ∧ after (R1 (F := F)) V (↑ᵣ main_v6) = V (↑ᵣ main_v6)
    ∧ after (R1 (F := F)) V (↑ᵣ main_v7) = V (↑ᵣ main_v7) := by
  refine ⟨?_, ?_, ?_, ?_, ?_, ?_, ?_⟩ <;> after_results

theorem r1_1_dinv : after (R1_1 (F := F)) V (↑ᵣ main_v15)
    = Cert.Gcn.dinvOf (V (↑ᵣ main_v13)) (V (↑ᵣ main_v14)) (V (↑ᵣ main_cst_2)) := by
  after_results <;> rfl
theorem r1_1_keep : after (R1_1 (F := F)) V (↑ᵣ main_arg1) = V (↑ᵣ main_arg1)
    ∧ after (R1_1 (F := F)) V (↑ᵣ main_arg3) = V (↑ᵣ main_arg3)
    ∧ after (R1_1 (F := F)) V (↑ᵣ main_arg4) = V (↑ᵣ main_arg4)
    ∧ after (R1_1 (F := F)) V (↑ᵣ main_arg5) = V (↑ᵣ main_arg5)
    ∧ after (R1_1 (F := F)) V (↑ᵣ main_v5) = V (↑ᵣ main_v5)
    ∧ after (R1_1 (F := F)) V (↑ᵣ main_v6) = V (↑ᵣ main_v6)
    ∧ after (R1_1 (F := F)) V (↑ᵣ main_v7) = V (↑ᵣ main_v7) := by
  refine ⟨?_, ?_, ?_, ?_, ?_, ?_, ?_⟩ <;> after_results

set_option maxHeartbeats 2000000 in
theorem r1_2_agg : after (R1_2 (F := F)) V (↑ᵣ main_v46)
    = Cert.Gcn.agg128 (V (↑ᵣ main_v5)) (V (↑ᵣ main_v6)) (V (↑ᵣ main_v15)) (V (↑ᵣ main_v7)) (V (↑ᵣ main_arg3)) := by
  after_results_simp <;> rfl
theorem r1_2_keep : after (R1_2 (F := F)) V (↑ᵣ main_arg1) = V (↑ᵣ main_arg1)
    ∧ after (R1_2 (F := F)) V (↑ᵣ main_arg4) = V (↑ᵣ main_arg4)
    ∧ after (R1_2 (F := F)) V (↑ᵣ main_arg5) = V (↑ᵣ main_arg5) := by
  refine ⟨?_, ?_, ?_⟩ <;> after_results

theorem r1_3_relu : after (R1_3 (F := F)) V (↑ᵣ main_v47) = Cert.Gcn.relu128 (V (↑ᵣ main_v46)) := by
  after_results <;> rfl
theorem r1_3_keep : after (R1_3 (F := F)) V (↑ᵣ main_arg1) = V (↑ᵣ main_arg1)
    ∧ after (R1_3 (F := F)) V (↑ᵣ main_arg4) = V (↑ᵣ main_arg4)
    ∧ after (R1_3 (F := F)) V (↑ᵣ main_arg5) = V (↑ᵣ main_arg5) := by
  refine ⟨?_, ?_, ?_⟩ <;> after_results

theorem r1_4_src : after (R1_4 (F := F)) V (↑ᵣ main_v53) = Cert.Gcn.srcIdx (V (↑ᵣ main_arg1)) := by
  after_results <;> rfl
theorem r1_4_dst : after (R1_4 (F := F)) V (↑ᵣ main_v54) = Cert.Gcn.dstIdx (V (↑ᵣ main_arg1)) := by
  after_results <;> rfl
theorem r1_4_keep : after (R1_4 (F := F)) V (↑ᵣ main_arg4) = V (↑ᵣ main_arg4)
    ∧ after (R1_4 (F := F)) V (↑ᵣ main_arg5) = V (↑ᵣ main_arg5)
    ∧ after (R1_4 (F := F)) V (↑ᵣ main_v47) = V (↑ᵣ main_v47) := by
  refine ⟨?_, ?_, ?_⟩ <;> after_results

theorem d2_h : after (D2 (F := F)) V (↑ᵣ main_v55)
    = Host.dotGeneral dot_S50000x128_S128x64_S50000x64_1_0_0_1_n_n none (V (↑ᵣ main_v47)) (V (↑ᵣ main_arg4)) := by
  after_results <;> rfl
theorem d2_keep : after (D2 (F := F)) V (↑ᵣ main_arg5) = V (↑ᵣ main_arg5)
    ∧ after (D2 (F := F)) V (↑ᵣ main_v53) = V (↑ᵣ main_v53)
    ∧ after (D2 (F := F)) V (↑ᵣ main_v54) = V (↑ᵣ main_v54) := by
  refine ⟨?_, ?_, ?_⟩ <;> after_results

theorem r2_pos : after (R2 (F := F)) V (↑ᵣ main_v61) = Cert.Gcn.degPos (F := F) (V (↑ᵣ main_v54)) := by
  after_results <;> rfl
theorem r2_rs : after (R2 (F := F)) V (↑ᵣ main_v62) = Host.rsqrt (Cert.Gcn.deg (F := F) (V (↑ᵣ main_v54))) := by
  after_results <;> rfl
theorem r2_z : after (R2 (F := F)) V (↑ᵣ main_cst_12) = constant (F := F) S_ .f32 0x00000000#32 := by
  after_results <;> rfl
theorem r2_keep : after (R2 (F := F)) V (↑ᵣ main_arg5) = V (↑ᵣ main_arg5)
    ∧ after (R2 (F := F)) V (↑ᵣ main_v53) = V (↑ᵣ main_v53)
    ∧ after (R2 (F := F)) V (↑ᵣ main_v54) = V (↑ᵣ main_v54)
    ∧ after (R2 (F := F)) V (↑ᵣ main_v55) = V (↑ᵣ main_v55) := by
  refine ⟨?_, ?_, ?_, ?_⟩ <;> after_results

theorem r2_1_dinv : after (R2_1 (F := F)) V (↑ᵣ main_v63)
    = Cert.Gcn.dinvOf (V (↑ᵣ main_v61)) (V (↑ᵣ main_v62)) (V (↑ᵣ main_cst_12)) := by
  after_results <;> rfl
theorem r2_1_keep : after (R2_1 (F := F)) V (↑ᵣ main_arg5) = V (↑ᵣ main_arg5)
    ∧ after (R2_1 (F := F)) V (↑ᵣ main_v53) = V (↑ᵣ main_v53)
    ∧ after (R2_1 (F := F)) V (↑ᵣ main_v54) = V (↑ᵣ main_v54)
    ∧ after (R2_1 (F := F)) V (↑ᵣ main_v55) = V (↑ᵣ main_v55) := by
  refine ⟨?_, ?_, ?_, ?_⟩ <;> after_results

set_option maxHeartbeats 2000000 in
theorem r2_2_agg : after (R2_2 (F := F)) V (↑ᵣ main_v94)
    = Cert.Gcn.agg64 (V (↑ᵣ main_v53)) (V (↑ᵣ main_v54)) (V (↑ᵣ main_v63)) (V (↑ᵣ main_v55)) (V (↑ᵣ main_arg5)) := by
  after_results_simp <;> rfl

end Cert.ReferenceIdeal.GcnStages

end
-- ==== Proof.RefValue.lean ====
/-
  The reference program's result is the specification's network `Cert.Gcn.gcn` of its six arguments.

  The contents after each stretch (`U1 … U11`, from any starting contents `V`) are walked in order: each buffer a
  later stretch reads is identified as a function of `V` at the argument buffers, by the stretch's reading
  (`Cert.ReferenceIdeal.GcnStages`) and the readings before it.  This holds over any float model: the reference is the
  network by its text alone.
-/
import proofs.«120447_j53334903882346_1_alg».proof.Proof.RefStages

set_option maxRecDepth 16384

noncomputable section

namespace Cert.ReferenceIdeal.GcnValue

open Idealize.ShloMosaic Idealize.ShloMosaic.TcCoe Idealize.SL.Sem Idealize.ShloMosaic.StableHlo
open Cert.ReferenceIdeal Cert.ReferenceIdeal.Gen Cert.ReferenceIdeal.GcnStages

variable {F : FTy → Type} [FloatOps F]

local notation "↑ᵣ" r => (Proc.devRef (τ := τ) (sig := sig) Proc.tc r)

variable (V : Valuation τ sig (Elt F))

/-! ## The message lists and the first projection -/

theorem u1_x : U1 V (↑ᵣ main_arg0) = (V (↑ᵣ main_arg0)) := (r0_keep V).1
theorem u1_e : U1 V (↑ᵣ main_arg1) = (V (↑ᵣ main_arg1)) := (r0_keep V).2.1
theorem u1_w1 : U1 V (↑ᵣ main_arg2) = (V (↑ᵣ main_arg2)) := (r0_keep V).2.2.1
theorem u1_b1 : U1 V (↑ᵣ main_arg3) = (V (↑ᵣ main_arg3)) := (r0_keep V).2.2.2.1
theorem u1_w2 : U1 V (↑ᵣ main_arg4) = (V (↑ᵣ main_arg4)) := (r0_keep V).2.2.2.2.1
theorem u1_b2 : U1 V (↑ᵣ main_arg5) = (V (↑ᵣ main_arg5)) := (r0_keep V).2.2.2.2.2
theorem u1_src : U1 V (↑ᵣ main_v5) = (Cert.Gcn.srcIdx (V (↑ᵣ main_arg1))) := r0_src V
theorem u1_dst : U1 V (↑ᵣ main_v6) = (Cert.Gcn.dstIdx (V (↑ᵣ main_arg1))) := r0_dst V

theorem u2_h : U2 V (↑ᵣ main_v7) = (Host.dotGeneral dot_S50000x256_S256x128_S50000x128_1_0_0_1_n_n none (V (↑ᵣ main_arg0)) (V (↑ᵣ main_arg2))) := (d1_h (U1 V)).trans (by rw [u1_x, u1_w1])
theorem u2_e : U2 V (↑ᵣ main_arg1) = (V (↑ᵣ main_arg1)) := (d1_keep (U1 V)).1.trans (u1_e V)
theorem u2_b1 : U2 V (↑ᵣ main_arg3) = (V (↑ᵣ main_arg3)) := (d1_keep (U1 V)).2.1.trans (u1_b1 V)
theorem u2_w2 : U2 V (↑ᵣ main_arg4) = (V (↑ᵣ main_arg4)) := (d1_keep (U1 V)).2.2.1.trans (u1_w2 V)
theorem u2_b2 : U2 V (↑ᵣ main_arg5) = (V (↑ᵣ main_arg5)) := (d1_keep (U1 V)).2.2.2.1.trans (u1_b2 V)
theorem u2_src : U2 V (↑ᵣ main_v5) = (Cert.Gcn.srcIdx (V (↑ᵣ main_arg1))) := (d1_keep (U1 V)).2.2.2.2.1.trans (u1_src V)
theorem u2_dst : U2 V (↑ᵣ main_v6) = (Cert.Gcn.dstIdx (V (↑ᵣ main_arg1))) := (d1_keep (U1 V)).2.2.2.2.2.trans (u1_dst V)

/-! ## The degrees and their inverse roots -/

theorem u3_pos : U3 V (↑ᵣ main_v13) = Cert.Gcn.degPos (F := F) (Cert.Gcn.dstIdx (V (↑ᵣ main_arg1))) :=
  (r1_pos (U2 V)).trans (congrArg (Cert.Gcn.degPos (F := F)) (u2_dst V))
theorem u3_rs : U3 V (↑ᵣ main_v14) = Host.rsqrt (Cert.Gcn.deg (F := F) (Cert.Gcn.dstIdx (V (↑ᵣ main_arg1)))) :=
  (r1_rs (U2 V)).trans (congrArg (fun d => Host.rsqrt (Cert.Gcn.deg (F := F) d)) (u2_dst V))
theorem u3_z : U3 V (↑ᵣ main_cst_2) = constant (F := F) S_ .f32 0x00000000#32 := r1_z (U2 V)
theorem u3_e : U3 V (↑ᵣ main_arg1) = (V (↑ᵣ main_arg1)) := (r1_keep (U2 V)).1.trans (u2_e V)
theorem u3_b1 : U3 V (↑ᵣ main_arg3) = (V (↑ᵣ main_arg3)) := (r1_keep (U2 V)).2.1.trans (u2_b1 V)
theorem u3_w2 : U3 V (↑ᵣ main_arg4) = (V (↑ᵣ main_arg4)) := (r1_keep (U2 V)).2.2.1.trans (u2_w2 V)
theorem u3_b2 : U3 V (↑ᵣ main_arg5) = (V (↑ᵣ main_arg5)) := (r1_keep (U2 V)).2.2.2.1.trans (u2_b2 V)
theorem u3_src : U3 V (↑ᵣ main_v5) = (Cert.Gcn.srcIdx (V (↑ᵣ main_arg1))) := (r1_keep (U2 V)).2.2.2.2.1.trans (u2_src V)
theorem u3_dst : U3 V (↑ᵣ main_v6) = (Cert.Gcn.dstIdx (V (↑ᵣ main_arg1))) := (r1_keep (U2 V)).2.2.2.2.2.1.trans (u2_dst V)
theorem u3_h : U3 V (↑ᵣ main_v7) = (Host.dotGeneral dot_S50000x256_S256x128_S50000x128_1_0_0_1_n_n none (V (↑ᵣ main_arg0)) (V (↑ᵣ main_arg2))) := (r1_keep (U2 V)).2.2.2.2.2.2.trans (u2_h V)

theorem u4_dinv : U4 V (↑ᵣ main_v15) = (Cert.Gcn.dinv (F := F) (Cert.Gcn.dstIdx (V (↑ᵣ main_arg1)))) :=
  (r1_1_dinv (U3 V)).trans (by rw [u3_pos, u3_rs, u3_z]; rfl)
theorem u4_e : U4 V (↑ᵣ main_arg1) = (V (↑ᵣ main_arg1)) := (r1_1_keep (U3 V)).1.trans (u3_e V)
theorem u4_b1 : U4 V (↑ᵣ main_arg3) = (V (↑ᵣ main_arg3)) := (r1_1_keep (U3 V)).2.1.trans (u3_b1 V)
theorem u4_w2 : U4 V (↑ᵣ main_arg4) = (V (↑ᵣ main_arg4)) := (r1_1_keep (U3 V)).2.2.1.trans (u3_w2 V)
theorem u4_b2 : U4 V (↑ᵣ main_arg5) = (V (↑ᵣ main_arg5)) := (r1_1_keep (U3 V)).2.2.2.1.trans (u3_b2 V)
theorem u4_src : U4 V (↑ᵣ main_v5) = (Cert.Gcn.srcIdx (V (↑ᵣ main_arg1))) := (r1_1_keep (U3 V)).2.2.2.2.1.trans (u3_src V)
theorem u4_dst : U4 V (↑ᵣ main_v6) = (Cert.Gcn.dstIdx (V (↑ᵣ main_arg1))) := (r1_1_keep (U3 V)).2.2.2.2.2.1.trans (u3_dst V)
theorem u4_h : U4 V (↑ᵣ main_v7) = (Host.dotGeneral dot_S50000x256_S256x128_S50000x128_1_0_0_1_n_n none (V (↑ᵣ main_arg0)) (V (↑ᵣ main_arg2))) := (r1_1_keep (U3 V)).2.2.2.2.2.2.trans (u3_h V)

/-! ## The first aggregation, the rectifier, the second projection -/

theorem u5_agg : U5 V (↑ᵣ main_v46) = Cert.Gcn.agg128 (Cert.Gcn.srcIdx (V (↑ᵣ main_arg1))) (Cert.Gcn.dstIdx (V (↑ᵣ main_arg1))) (Cert.Gcn.dinv (F := F) (Cert.Gcn.dstIdx (V (↑ᵣ main_arg1)))) (Host.dotGeneral dot_S50000x256_S256x128_S50000x128_1_0_0_1_n_n none (V (↑ᵣ main_arg0)) (V (↑ᵣ main_arg2))) (V (↑ᵣ main_arg3)) :=
  (r1_2_agg (U4 V)).trans (by rw [u4_src, u4_dst, u4_dinv, u4_h, u4_b1])
theorem u5_e : U5 V (↑ᵣ main_arg1) = (V (↑ᵣ main_arg1)) := (r1_2_keep (U4 V)).1.trans (u4_e V)
theorem u5_w2 : U5 V (↑ᵣ main_arg4) = (V (↑ᵣ main_arg4)) := (r1_2_keep (U4 V)).2.1.trans (u4_w2 V)
theorem u5_b2 : U5 V (↑ᵣ main_arg5) = (V (↑ᵣ main_arg5)) := (r1_2_keep (U4 V)).2.2.trans (u4_b2 V)

theorem u6_hid : U6 V (↑ᵣ main_v47) = (Cert.Gcn.hidden (F := F) (V (↑ᵣ main_arg1)) (Host.dotGeneral dot_S50000x256_S256x128_S50000x128_1_0_0_1_n_n none (V (↑ᵣ main_arg0)) (V (↑ᵣ main_arg2))) (V (↑ᵣ main_arg3))) := (r1_3_relu (U5 V)).trans (by rw [u5_agg]; rfl)
theorem u6_e : U6 V (↑ᵣ main_arg1) = (V (↑ᵣ main_arg1)) := (r1_3_keep (U5 V)).1.trans (u5_e V)
theorem u6_w2 : U6 V (↑ᵣ main_arg4) = (V (↑ᵣ main_arg4)) := (r1_3_keep (U5 V)).2.1.trans (u5_w2 V)
theorem u6_b2 : U6 V (↑ᵣ main_arg5) = (V (↑ᵣ main_arg5)) := (r1_3_keep (U5 V)).2.2.trans (u5_b2 V)

theorem u7_src : U7 V (↑ᵣ main_v53) = (Cert.Gcn.srcIdx (V (↑ᵣ main_arg1))) := (r1_4_src (U6 V)).trans (congrArg Cert.Gcn.srcIdx (u6_e V))
theorem u7_dst : U7 V (↑ᵣ main_v54) = (Cert.Gcn.dstIdx (V (↑ᵣ main_arg1))) := (r1_4_dst (U6 V)).trans (congrArg Cert.Gcn.dstIdx (u6_e V))
theorem u7_w2 : U7 V (↑ᵣ main_arg4) = (V (↑ᵣ main_arg4)) := (r1_4_keep (U6 V)).1.trans (u6_w2 V)
theorem u7_b2 : U7 V (↑ᵣ main_arg5) = (V (↑ᵣ main_arg5)) := (r1_4_keep (U6 V)).2.1.trans (u6_b2 V)
theorem u7_hid : U7 V (↑ᵣ main_v47) = (Cert.Gcn.hidden (F := F) (V (↑ᵣ main_arg1)) (Host.dotGeneral dot_S50000x256_S256x128_S50000x128_1_0_0_1_n_n none (V (↑ᵣ main_arg0)) (V (↑ᵣ main_arg2))) (V (↑ᵣ main_arg3))) := (r1_4_keep (U6 V)).2.2.trans (u6_hid V)

theorem u8_h : U8 V (↑ᵣ main_v55) = (Host.dotGeneral dot_S50000x128_S128x64_S50000x64_1_0_0_1_n_n none (Cert.Gcn.hidden (F := F) (V (↑ᵣ main_arg1)) (Host.dotGeneral dot_S50000x256_S256x128_S50000x128_1_0_0_1_n_n none (V (↑ᵣ main_arg0)) (V (↑ᵣ main_arg2))) (V (↑ᵣ main_arg3))) (V (↑ᵣ main_arg4))) := (d2_h (U7 V)).trans (by rw [u7_hid, u7_w2])
theorem u8_b2 : U8 V (↑ᵣ main_arg5) = (V (↑ᵣ main_arg5)) := (d2_keep (U7 V)).1.trans (u7_b2 V)
theorem u8_src : U8 V (↑ᵣ main_v53) = (Cert.Gcn.srcIdx (V (↑ᵣ main_arg1))) := (d2_keep (U7 V)).2.1.trans (u7_src V)
theorem u8_dst : U8 V (↑ᵣ main_v54) = (Cert.Gcn.dstIdx (V (↑ᵣ main_arg1))) := (d2_keep (U7 V)).2.2.trans (u7_dst V)

/-! ## The output layer -/

theorem u9_pos : U9 V (↑ᵣ main_v61) = Cert.Gcn.degPos (F := F) (Cert.Gcn.dstIdx (V (↑ᵣ main_arg1))) :=
  (r2_pos (U8 V)).trans (congrArg (Cert.Gcn.degPos (F := F)) (u8_dst V))
theorem u9_rs : U9 V (↑ᵣ main_v62) = Host.rsqrt (Cert.Gcn.deg (F := F) (Cert.Gcn.dstIdx (V (↑ᵣ main_arg1)))) :=
  (r2_rs (U8 V)).trans (congrArg (fun d => Host.rsqrt (Cert.Gcn.deg (F := F) d)) (u8_dst V))
theorem u9_z : U9 V (↑ᵣ main_cst_12) = constant (F := F) S_ .f32 0x00000000#32 := r2_z (U8 V)
theorem u9_b2 : U9 V (↑ᵣ main_arg5) = (V (↑ᵣ main_arg5)) := (r2_keep (U8 V)).1.trans (u8_b2 V)
theorem u9_src : U9 V (↑ᵣ main_v53) = (Cert.Gcn.srcIdx (V (↑ᵣ main_arg1))) := (r2_keep (U8 V)).2.1.trans (u8_src V)
theorem u9_dst : U9 V (↑ᵣ main_v54) = (Cert.Gcn.dstIdx (V (↑ᵣ main_arg1))) := (r2_keep (U8 V)).2.2.1.trans (u8_dst V)
theorem u9_h : U9 V (↑ᵣ main_v55) = (Host.dotGeneral dot_S50000x128_S128x64_S50000x64_1_0_0_1_n_n none (Cert.Gcn.hidden (F := F) (V (↑ᵣ main_arg1)) (Host.dotGeneral dot_S50000x256_S256x128_S50000x128_1_0_0_1_n_n none (V (↑ᵣ main_arg0)) (V (↑ᵣ main_arg2))) (V (↑ᵣ main_arg3))) (V (↑ᵣ main_arg4))) := (r2_keep (U8 V)).2.2.2.trans (u8_h V)

theorem u10_dinv : U10 V (↑ᵣ main_v63) = (Cert.Gcn.dinv (F := F) (Cert.Gcn.dstIdx (V (↑ᵣ main_arg1)))) :=
  (r2_1_dinv (U9 V)).trans (by rw [u9_pos, u9_rs, u9_z]; rfl)
theorem u10_b2 : U10 V (↑ᵣ main_arg5) = (V (↑ᵣ main_arg5)) := (r2_1_keep (U9 V)).1.trans (u9_b2 V)
theorem u10_src : U10 V (↑ᵣ main_v53) = (Cert.Gcn.srcIdx (V (↑ᵣ main_arg1))) := (r2_1_keep (U9 V)).2.1.trans (u9_src V)
theorem u10_dst : U10 V (↑ᵣ main_v54) = (Cert.Gcn.dstIdx (V (↑ᵣ main_arg1))) := (r2_1_keep (U9 V)).2.2.1.trans (u9_dst V)
theorem u10_h : U10 V (↑ᵣ main_v55) = (Host.dotGeneral dot_S50000x128_S128x64_S50000x64_1_0_0_1_n_n none (Cert.Gcn.hidden (F := F) (V (↑ᵣ main_arg1)) (Host.dotGeneral dot_S50000x256_S256x128_S50000x128_1_0_0_1_n_n none (V (↑ᵣ main_arg0)) (V (↑ᵣ main_arg2))) (V (↑ᵣ main_arg3))) (V (↑ᵣ main_arg4))) := (r2_1_keep (U9 V)).2.2.2.trans (u9_h V)

/-- THE RESULT BUFFER after the 123 operations is the network of the six argument buffers' contents. -/
theorem value : after (ValueP.ops (F := F)) V (↑ᵣ main_v94)
    = Cert.Gcn.gcn (F := F) (V (↑ᵣ main_arg0)) (V (↑ᵣ main_arg1)) (V (↑ᵣ main_arg2)) (V (↑ᵣ main_arg3)) (V (↑ᵣ main_arg4)) (V (↑ᵣ main_arg5)) :=
  (congrFun (after_ops V) (↑ᵣ main_v94)).trans
    ((r2_2_agg (U10 V)).trans (by rw [u10_src, u10_dst, u10_dinv, u10_h, u10_b2]; rfl))

end Cert.ReferenceIdeal.GcnValue

end
-- ==== Proof.RefKept.lean ====
/-
  No operation of the reference writes an argument buffer: after all 123 operations, from any contents `V`, each of
  the six argument buffers holds what it held.
-/
import proofs.«120447_j53334903882346_1_alg».proof.Proof.RefRunPatched

noncomputable section

namespace Cert.ReferenceIdeal.GcnKept

open Idealize.ShloMosaic Idealize.ShloMosaic.TcCoe Idealize.SL.Sem Idealize.ShloMosaic.StableHlo
open Cert.ReferenceIdeal Cert.ReferenceIdeal.Gen

variable {F : FTy → Type} [FloatOps F]

local notation "↑ᵣ" r => (Proc.devRef (τ := τ) (sig := sig) Proc.tc r)

variable (V : Valuation τ sig (Elt F))

set_option maxRecDepth 8192 in
set_option maxHeartbeats 8000000 in
theorem kept : after (ValueP.ops (F := F)) V (↑ᵣ main_arg0) = V (↑ᵣ main_arg0)
    ∧ after (ValueP.ops (F := F)) V (↑ᵣ main_arg1) = V (↑ᵣ main_arg1)
    ∧ after (ValueP.ops (F := F)) V (↑ᵣ main_arg2) = V (↑ᵣ main_arg2)
    ∧ after (ValueP.ops (F := F)) V (↑ᵣ main_arg3) = V (↑ᵣ main_arg3)
    ∧ after (ValueP.ops (F := F)) V (↑ᵣ main_arg4) = V (↑ᵣ main_arg4)
    ∧ after (ValueP.ops (F := F)) V (↑ᵣ main_arg5) = V (↑ᵣ main_arg5) := by
  refine ⟨?_, ?_, ?_, ?_, ?_, ?_⟩ <;> (after_results_simp <;> rfl)

end Cert.ReferenceIdeal.GcnKept

end
-- ==== Proof.lean ====
/-
  A two-layer graph convolution: a kernel program whose two dense projections `x · W` are pallas_calls (each a grid of
  ten bands of 5000 rows, the operands fed in a narrower float format, accumulated from zero) against a reference that
  computes them with the host's dot_general.  Everything around the projections — the self-loops, the degree count,
  the symmetric normalisation `dinv src · dinv dst`, the gather / scale / scatter-add of messages, the bias, the
  rectifier — is the same array code in both programs.

  On the extended reals a change of float format is the identity and a product's entry is the finite sum
  `∑ k, x (r, k) · w (k, j)` however it is tiled, so the ten bands assemble to the host's product (Proof/MatmulBlocks.lean)
  and both programs compute one function of the six arguments, `Cert.Gcn.gcn` (Proof/GcnSpec.lean): the kernel program
  by walking its buffer contents from segment to segment (Proof/KernelStages.lean, KernelValue.lean, over the run of
  Proof/KernelRun.lean), the reference by walking its 123 operations stretch by stretch (Proof/RefStages.lean,
  RefValue.lean).  No law used needs finiteness — sums are only re-indexed, never redistributed — so the precondition is
  never opened.  The idealization pass rewrote nothing, so `preserves` has nothing to state.
-/
import proofs.«120447_j53334903882346_1_alg».proof.Defs
import proofs.«120447_j53334903882346_1_alg».proof.Proof.Gen.Kernel
import proofs.«120447_j53334903882346_1_alg».proof.Proof.Gen.Kernel.Skeleton
import proofs.«120447_j53334903882346_1_alg».proof.Proof.Gen.Kernel.Launch
import proofs.«120447_j53334903882346_1_alg».proof.Proof.Gen.Kernel.Points
import proofs.«120447_j53334903882346_1_alg».proof.Proof.Gen.Kernel.Frame
import proofs.«120447_j53334903882346_1_alg».proof.Proof.Gen.KernelIdeal
import proofs.«120447_j53334903882346_1_alg».proof.Proof.Gen.KernelIdeal.Skeleton
import proofs.«120447_j53334903882346_1_alg».proof.Proof.Gen.KernelIdeal.Launch
import proofs.«120447_j53334903882346_1_alg».proof.Proof.Gen.KernelIdeal.Points
import proofs.«120447_j53334903882346_1_alg».proof.Proof.Gen.KernelIdeal.Frame
import proofs.«120447_j53334903882346_1_alg».proof.Proof.Gen.ReferenceIdeal
import proofs.«120447_j53334903882346_1_alg».proof.Proof.Gen.Pre_finite_inputs
import proofs.«120447_j53334903882346_1_alg».proof.Proof.KernelRun
import proofs.«120447_j53334903882346_1_alg».proof.Proof.KernelValue
import proofs.«120447_j53334903882346_1_alg».proof.Proof.RefValue
import proofs.«120447_j53334903882346_1_alg».proof.Proof.RefKept
import Idealize.ShloMosaic.Adequacy
import Idealize.ShloMosaic.Init

noncomputable section

namespace Cert.Proof

open Idealize.ShloMosaic Idealize.SL.Sem

/-- The reference runs and leaves its arguments alone: its run with every buffer at the fold of the operations, read at
    the six argument buffers, which no operation writes. -/
theorem frame_ri : Cert.frame_ReferenceIdeal := fun m ρ _ =>
  (θ_run Cert.ReferenceIdeal.defs _ _).mono (fun r h c => by
      obtain ⟨k0, k1, k2, k3, k4, k5⟩ := Cert.ReferenceIdeal.GcnKept.kept (F := Ideal) (StableHlo.launchContents m c)
      exact ⟨(h c _).trans k0, (h c _).trans k1, (h c _).trans k2, (h c _).trans k3, (h c _).trans k4, (h c _).trans k5⟩)
    (Cert.ReferenceIdeal.ValueP.run_raw (F := Ideal) m ρ)

/-- From memories agreeing on the arguments both programs end with the network of the arguments in their result
    buffers: the kernel program's last boundary contents and the reference's fold are both `Cert.Gcn.gcn`. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.GcnValue.value m ρ c), (h c).2⟩)
      (Cert.KernelIdeal.GcnRun.run_last m ρ)
  · refine (θ_run Cert.ReferenceIdeal.defs _ _).mono (fun r h c => ?_) (Cert.ReferenceIdeal.ValueP.run_raw (F := Ideal) m' ρ')
    obtain ⟨k0, k1, k2, k3, k4, k5⟩ := Cert.ReferenceIdeal.GcnKept.kept (F := Ideal) (StableHlo.launchContents m' c)
    obtain ⟨a0, a1, a2, a3, a4, a5⟩ := hagree c
    refine ⟨?_, (h c _).trans k0, (h c _).trans k1, (h c _).trans k2, (h c _).trans k3, (h c _).trans k4, (h c _).trans k5⟩
    refine (h c Cert.ReferenceIdeal.main_v94).trans
      ((Cert.ReferenceIdeal.GcnValue.value (F := Ideal) (StableHlo.launchContents m' c)).trans ?_)
    show Cert.Gcn.gcn (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [a0, a1, a2, a3, a4, a5]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri, trivial, algebraic⟩

end Cert.Proof

end
